-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v30_0)) (v2 : (c : Dev Cert.KernelIdeal.nD) → Buf (Elt Ideal) ((c.tc : Thread Cert.KernelIdeal.nD Cert.KernelIdeal.τ).loc Cert.KernelIdeal.main_v30_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v30_0) = v1 c
          ∧ r.2.mem ((c.tc : Thread Cert.KernelIdeal.nD Cert.KernelIdeal.τ).loc Cert.KernelIdeal.main_v30_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v48) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x3200000 : Shape := ⟨2, ![2, 3200000]⟩
abbrev S100000x2 : Shape := ⟨2, ![100000, 2]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S4 : Shape := ⟨1, ![4]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S8x32 : S_.BroadcastsInDim S8x32 (![] : Fin 0 → Fin S8x32.rank)
  reducesTo_S8x32_S_d0_1 : S8x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_
  bcast_S_S4x32 : S_.BroadcastsInDim S4x32 (![] : Fin 0 → Fin S4x32.rank)
  reducesTo_S4x32_S_d0_1 : S4x32.ReducesTo [0, 1] S_
  bcast_S_S32x4 : S_.BroadcastsInDim S32x4 (![] : Fin 0 → Fin S32x4.rank)
  reducesTo_S32x4_S_d0_1 : S32x4.ReducesTo [0, 1] S_
  bcast_S_S4 : S_.BroadcastsInDim S4 (![] : Fin 0 → Fin S4.rank)
  reducesTo_S4_S_d0 : S4.ReducesTo [0] S_

variable [Facts]

def fn_part4 {F : FTy → Type} [FloatOps F] (main_arg15 : FVec F S32x4 .f32) (main_arg16 : FVec F S4 .f32) (main_v63 : IVec S_ 1) (main_v67 : IVec S_ 1) : IVec S_ 1 :=
  let main_v68 : IVec S_ 1 := andi main_v63 main_v67
  let main_v69 : FVec F S32x4 .f32 := Host.absf main_arg15
  let main_cst_26 : FVec F S_ .f32 := constant S_ .f32 0x7F800000#32
  let main_v70 : FVec F S32x4 .f32 := broadcastInDim S32x4 ![] bcast_S_S32x4 main_cst_26
  let main_v71 : IVec S32x4 1 := cmpf .olt main_v69 main_v70
  let main_c_27 : IVec S_ 1 := constantI S_ 1 1#1
  let main_v72 : IVec S_ 1 := (fun x v => Host.reduce IntOp.andi x v reducesTo_S32x4_S_d0_1 h_S_) main_v71 main_c_27
  let main_v73 : IVec S_ 1 := andi main_v68 main_v72
  let main_v74 : FVec F S4 .f32 := Host.absf main_arg16
  let main_cst_28 : FVec F S_ .f32 := constant S_ .f32 0x7F800000#32
  let main_v75 : FVec F S4 .f32 := broadcastInDim S4 ![] bcast_S_S4 main_cst_28
  let main_v76 : IVec S4 1 := cmpf .olt main_v74 main_v75
  let main_c_29 : IVec S_ 1 := constantI S_ 1 1#1
  let main_v77 : IVec S_ 1 := (fun x v => Host.reduce IntOp.andi x v reducesTo_S4_S_d0 h_S_) main_v76 main_c_29
  let main_v78 : IVec S_ 1 := andi main_v73 main_v77
  main_v78

def fn_part3 {F : FTy → Type} [FloatOps F] (main_arg12 : FVec F S32 .f32) (main_arg13 : FVec F S32x32 .f32) (main_arg14 : FVec F S32 .f32) (main_arg15 : FVec F S32x4 .f32) (main_arg16 : FVec F S4 .f32) (main_v48 : IVec S_ 1) (main_v49 : FVec F S4x32 .f32) (main_v50 : FVec F S4x32 .f32) : IVec S_ 1 :=
  let main_v51 : IVec S4x32 1 := cmpf .olt main_v49 main_v50
  let main_c_19 : IVec S_ 1 := constantI S_ 1 1#1
  let main_v52 : IVec S_ 1 := (fun x v => Host.reduce IntOp.andi x v reducesTo_S4x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S32x32 .f32 := Host.absf main_arg13
  let main_cst_22 : FVec F S_ .f32 := constant S_ .f32 0x7F800000#32
  let main_v60 : FVec F S32x32 .f32 := broadcastInDim S32x32 ![] bcast_S_S32x32 main_cst_22
  let main_v61 : IVec S32x32 1 := cmpf .olt main_v59 main_v60
  let main_c_23 : IVec S_ 1 := constantI S_ 1 1#1
  let main_v62 : IVec S_ 1 := (fun x v => Host.reduce IntOp.andi x v reducesTo_S32x32_S_d0_1 h_S_) main_v61 main_c_23
  let main_v63 : IVec S_ 1 := andi main_v58 main_v62
  let main_v64 : FVec F S32 .f32 := Host.absf main_arg14
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg15 main_arg16 main_v63 main_v67

def fn_part2 {F : FTy → Type} [FloatOps F] (main_arg8 : FVec F S2 .f32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) (main_v33 : IVec S_ 1) : IVec S_ 1 :=
  let main_v34 : FVec F S2 .f32 := Host.absf main_arg8
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  let main_v39 : FVec F S32x2 .f32 := Host.absf main_arg9
  let main_cst_14 : FVec F S_ .f32 := constant S_ .f32 0x7F800000#32
  let main_v40 : FVec F S32x2 .f32 := broadcastInDim S32x2 ![] bcast_S_S32x2 main_cst_14
  let main_v41 : IVec S32x2 1 := cmpf .olt main_v39 main_v40
  let main_c_15 : IVec S_ 1 := constantI S_ 1 1#1
  let main_v42 : IVec S_ 1 := (fun x v => Host.reduce IntOp.andi x v reducesTo_S32x2_S_d0_1 h_S_) main_v41 main_c_15
  let main_v43 : IVec S_ 1 := andi main_v38 main_v42
  let main_v44 : FVec F S2 .f32 := Host.absf main_arg10
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S4x32 .f32 := Host.absf main_arg11
  let main_cst_18 : FVec F S_ .f32 := constant S_ .f32 0x7F800000#32
  let main_v50 : FVec F S4x32 .f32 := broadcastInDim S4x32 ![] bcast_S_S4x32 main_cst_18
  fn_part3 (F := F) main_arg12 main_arg13 main_arg14 main_arg15 main_arg16 main_v48 main_v49 main_v50

def fn_part1 {F : FTy → Type} [FloatOps F] (main_arg5 : FVec F S32x32 .f32) (main_arg6 : FVec F S32 .f32) (main_arg7 : FVec F S32x2 .f32) (main_arg8 : FVec F S2 .f32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x2 .f32 := Host.absf main_arg7
  let main_cst_10 : FVec F S_ .f32 := constant S_ .f32 0x7F800000#32
  let main_v30 : FVec F S32x2 .f32 := broadcastInDim S32x2 ![] bcast_S_S32x2 main_cst_10
  let main_v31 : IVec S32x2 1 := cmpf .olt main_v29 main_v30
  let main_c_11 : IVec S_ 1 := constantI S_ 1 1#1
  let main_v32 : IVec S_ 1 := (fun x v => Host.reduce IntOp.andi x v reducesTo_S32x2_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x4 .f32) (main_arg1 : IVec S2x3200000 32) (main_arg2 : FVec F S100000x2 .f32) (main_arg3 : FVec F S8x32 .f32) (main_arg4 : FVec F S32 .f32) (main_arg5 : FVec F S32x32 .f32) (main_arg6 : FVec F S32 .f32) (main_arg7 : FVec F S32x2 .f32) (main_arg8 : FVec F S2 .f32) (main_arg9 : FVec F S32x2 .f32) (main_arg10 : FVec F S2 .f32) (main_arg11 : FVec F S4x32 .f32) (main_arg12 : FVec F S32 .f32) (main_arg13 : FVec F S32x32 .f32) (main_arg14 : FVec F S32 .f32) (main_arg15 : FVec F S32x4 .f32) (main_arg16 : FVec F S4 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x2 .f32 := Host.absf main_arg2
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S8x32 .f32 := Host.absf main_arg3
  let main_cst_2 : FVec F S_ .f32 := constant S_ .f32 0x7F800000#32
  let main_v10 : FVec F S8x32 .f32 := broadcastInDim S8x32 ![] bcast_S_S8x32 main_cst_2
  let main_v11 : IVec S8x32 1 := cmpf .olt main_v9 main_v10
  let main_c_3 : IVec S_ 1 := constantI S_ 1 1#1
  let main_v12 : IVec S_ 1 := (fun x v => Host.reduce IntOp.andi x v reducesTo_S8x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S2x3200000 : Shape := ⟨2, ![2, 3200000]⟩
abbrev S100000x2 : Shape := ⟨2, ![100000, 2]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S3200000x32 : Shape := ⟨2, ![3200000, 32]⟩
abbrev S8000x4 : Shape := ⟨2, ![8000, 4]⟩
abbrev S8000x32 : Shape := ⟨2, ![8000, 32]⟩
abbrev S8000x8 : Shape := ⟨2, ![8000, 8]⟩
abbrev S1x32 : Shape := ⟨2, ![1, 32]⟩
abbrev S100000x32 : Shape := ⟨2, ![100000, 32]⟩
abbrev S100000x1 : Shape := ⟨2, ![100000, 1]⟩
abbrev S2000x32 : Shape := ⟨2, ![2000, 32]⟩
abbrev S2000x2 : Shape := ⟨2, ![2000, 2]⟩
abbrev S1x2 : Shape := ⟨2, ![1, 2]⟩
abbrev S3200000x2 : Shape := ⟨2, ![3200000, 2]⟩
abbrev S8000x2 : Shape := ⟨2, ![8000, 2]⟩
abbrev S1x4 : Shape := ⟨2, ![1, 4]⟩

abbrev nBuf : Space → Nat
  | .hbm => 86
  | .vmem => 36
  | .smem => 0
  | _ => 0

abbrev bufTy : (tb : Table) → Fin (tcTables nBuf tb) → BufTy
  | .hbm, ⟨0, _⟩ => ⟨S100000x4, .f32⟩
  | .hbm, ⟨1, _⟩ => ⟨S2x3200000, .i32⟩
  | .hbm, ⟨2, _⟩ => ⟨S100000x2, .f32⟩
  | .hbm, ⟨3, _⟩ => ⟨S8x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x2, .f32⟩
  | .hbm, ⟨8, _⟩ => ⟨S2, .f32⟩
  | .hbm, ⟨9, _⟩ => ⟨S32x2, .f32⟩
  | .hbm, ⟨10, _⟩ => ⟨S2, .f32⟩
  | .hbm, ⟨11, _⟩ => ⟨S4x32, .f32⟩
  | .hbm, ⟨12, _⟩ => ⟨S32, .f32⟩
  | .hbm, ⟨13, _⟩ => ⟨S32x32, .f32⟩
  | .hbm, ⟨14, _⟩ => ⟨S32, .f32⟩
  | .hbm, ⟨15, _⟩ => ⟨S32x4, .f32⟩
  | .hbm, ⟨16, _⟩ => ⟨S4, .f32⟩
  | .hbm, ⟨17, _⟩ => ⟨S1x3200000, .i32⟩
  | .hbm, ⟨18, _⟩ => ⟨S3200000, .i32⟩
  | .hbm, ⟨19, _⟩ => ⟨S1x3200000, .i32⟩
  | .hbm, ⟨20, _⟩ => ⟨S3200000, .i32⟩
  | .hbm, ⟨21, _⟩ => ⟨S_, .i32⟩
  | .hbm, ⟨22, _⟩ => ⟨S3200000, .i32⟩
  | .hbm, ⟨23, _⟩ => ⟨S3200000, .i1⟩
  | .hbm, ⟨24, _⟩ => ⟨S_, .i32⟩
  | .hbm, ⟨25, _⟩ => ⟨S3200000, .i32⟩
  | .hbm, ⟨26, _⟩ => ⟨S3200000, .i32⟩
  | .hbm, ⟨27, _⟩ => ⟨S3200000, .i32⟩
  | .hbm, ⟨28, _⟩ => ⟨S3200000x1, .i32⟩
  | .hbm, ⟨29, _⟩ => ⟨S3200000x4, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000x4, .f32⟩
  | .hbm, ⟨39, _⟩ => ⟨S3200000x32, .f32⟩
  | .hbm, ⟨40, _⟩ => ⟨S_, .f32⟩
  | .hbm, ⟨41, _⟩ => ⟨S100000x32, .f32⟩
  | .hbm, ⟨42, _⟩ => ⟨S3200000x1, .i32⟩
  | .hbm, ⟨43, _⟩ => ⟨S100000x32, .f32⟩
  | .hbm, ⟨44, _⟩ => ⟨S_, .f32⟩
  | .hbm, ⟨45, _⟩ => ⟨S3200000x1, .f32⟩
  | .hbm, ⟨46, _⟩ => ⟨S_, .f32⟩
  | .hbm, ⟨47, _⟩ => ⟨S100000x1, .f32⟩
  | .hbm, ⟨48, _⟩ => ⟨S3200000x1, .i32⟩
  | .hbm, ⟨49, _⟩ => ⟨S100000x1, .f32⟩
  | .hbm, ⟨50, _⟩ => ⟨S_, .f32⟩
  | .hbm, ⟨51, _⟩ => ⟨S100000x1, .f32⟩
  | .hbm, ⟨52, _⟩ => ⟨S100000x1, .f32⟩
  | .hbm, ⟨53, _⟩ => ⟨S100000x32, .f32⟩
  | .hbm, ⟨54, _⟩ => ⟨S100000x32, .f32⟩
  | .hbm, ⟨55, _⟩ => ⟨S100000x2, .f32⟩
  | .hbm, ⟨56, _⟩ => ⟨S100000x2, .f32⟩
  | .hbm, ⟨57, _⟩ => ⟨S100000x2, .f32⟩
  | .hbm, ⟨58, _⟩ => ⟨S_, .i32⟩
  | .hbm, ⟨59, _⟩ => ⟨S3200000, .i32⟩
  | .hbm, ⟨60, _⟩ => ⟨S3200000, .i1⟩
  | .hbm, ⟨61, _⟩ => ⟨S_, .i32⟩
  | .hbm, ⟨62, _⟩ => ⟨S3200000, .i32⟩
  | .hbm, ⟨63, _⟩ => ⟨S3200000, .i32⟩
  | .hbm, ⟨64, _⟩ => ⟨S3200000, .i32⟩
  | .hbm, ⟨65, _⟩ => ⟨S3200000x1, .i32⟩
  | .hbm, ⟨66, _⟩ => ⟨S3200000x2, .f32⟩
  | .hbm, ⟨67, _⟩ => ⟨S_, .i32⟩
  | .hbm, ⟨68, _⟩ => ⟨S3200000, .i32⟩
  | .hbm, ⟨69, _⟩ => ⟨S3200000, .i1⟩
  | .hbm, ⟨70, _⟩ => ⟨S_, .i32⟩
  | .hbm, ⟨71, _⟩ => ⟨S3200000, .i32⟩
  | .hbm, ⟨72, _⟩ => ⟨S3200000, .i32⟩
  | .hbm, ⟨73, _⟩ => ⟨S3200000, .i32⟩
  | .hbm, ⟨74, _⟩ => ⟨S3200000x1, .i32⟩
  | .hbm, ⟨75, _⟩ => ⟨S3200000x2, .f32⟩
  | .hbm, ⟨76, _⟩ => ⟨S3200000x4, .f32⟩
  | .hbm, ⟨77, _⟩ => ⟨S_, .f32⟩
  | .hbm, ⟨78, _⟩ => ⟨S100000x4, .f32⟩
  | .hbm, ⟨79, _⟩ => ⟨S3200000x1, .i32⟩
  | .hbm, ⟨80, _⟩ => ⟨S100000x4, .f32⟩
  | .hbm, ⟨81, _⟩ => ⟨S_, .f32⟩
  | .hbm, ⟨82, _⟩ => ⟨S100000x1, .f32⟩
  | .hbm, ⟨83, _⟩ => ⟨S100000x1, .f32⟩
  | .hbm, ⟨84, _⟩ => ⟨S100000x4, .f32⟩
  | .hbm, ⟨85, _⟩ => ⟨S100000x4, .f32⟩
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S8x32, .f32⟩
  | .local _ .vmem, ⟨5, _⟩ => ⟨S32, .f32⟩
  | .local _ .vmem, ⟨6, _⟩ => ⟨S32x32, .f32⟩
  | .local _ .vmem, ⟨7, _⟩ => ⟨S32, .f32⟩
  | .local _ .vmem, ⟨8, _⟩ => ⟨S8000x32, .f32⟩
  | .local _ .vmem, ⟨9, _⟩ => ⟨S8000x32, .f32⟩
  | .local _ .vmem, ⟨10, _⟩ => ⟨S2000x32, .f32⟩
  | .local _ .vmem, ⟨11, _⟩ => ⟨S2000x32, .f32⟩
  | .local _ .vmem, ⟨12, _⟩ => ⟨S2000x2, .f32⟩
  | .local _ .vmem, ⟨13, _⟩ => ⟨S2000x2, .f32⟩
  | .local _ .vmem, ⟨14, _⟩ => ⟨S32x2, .f32⟩
  | .local _ .vmem, ⟨15, _⟩ => ⟨S2, .f32⟩
  | .local _ .vmem, ⟨16, _⟩ => ⟨S32x2, .f32⟩
  | .local _ .vmem, ⟨17, _⟩ => ⟨S2, .f32⟩
  | .local _ .vmem, ⟨18, _⟩ => ⟨S2000x2, .f32⟩
  | .local _ .vmem, ⟨19, _⟩ => ⟨S2000x2, .f32⟩
  | .local _ .vmem, ⟨20, _⟩ => ⟨S2000x2, .f32⟩
  | .local _ .vmem, ⟨21, _⟩ => ⟨S2000x2, .f32⟩
  | .local _ .vmem, ⟨22, _⟩ => ⟨S2000x2, .f32⟩
  | .local _ .vmem, ⟨23, _⟩ => ⟨S2000x2, .f32⟩
  | .local _ .vmem, ⟨24, _⟩ => ⟨S8000x2, .f32⟩
  | .local _ .vmem, ⟨25, _⟩ => ⟨S8000x2, .f32⟩
  | .local _ .vmem, ⟨26, _⟩ => ⟨S8000x2, .f32⟩
  | .local _ .vmem, ⟨27, _⟩ => ⟨S8000x2, .f32⟩
  | .local _ .vmem, ⟨28, _⟩ => ⟨S4x32, .f32⟩
  | .local _ .vmem, ⟨29, _⟩ => ⟨S32, .f32⟩
  | .local _ .vmem, ⟨30, _⟩ => ⟨S32x32, .f32⟩
  | .local _ .vmem, ⟨31, _⟩ => ⟨S32, .f32⟩
  | .local _ .vmem, ⟨32, _⟩ => ⟨S32x4, .f32⟩
  | .local _ .vmem, ⟨33, _⟩ => ⟨S4, .f32⟩
  | .local _ .vmem, ⟨34, _⟩ => ⟨S8000x4, .f32⟩
  | .local _ .vmem, ⟨35, _⟩ => ⟨S8000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_3 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30_0 : Ref sig .tc := ⟨.hbm, 55, rfl⟩
abbrev main_v30_1 : Ref sig .tc := ⟨.hbm, 56, rfl⟩
abbrev main_v30_2 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_c_8 : Ref sig .tc := ⟨.hbm, 67, rfl⟩
abbrev main_v38 : Ref sig .tc := ⟨.hbm, 68, rfl⟩
abbrev main_v39 : Ref sig .tc := ⟨.hbm, 69, rfl⟩
abbrev main_c_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_10 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg8_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem8_1 : DmaSem sig := 35

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S2000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x4 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S8000x4 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  concatenates_S8000x4_S8000x4_S8000x8_d1 : Shape.Concatenates [S8000x4, S8000x4] S8000x8 1
  bitsLt_bf16_f32 : FTy.bits .bf16 < FTy.bits .f32
  inb_S8x32_S8x32_0_0 : ∀ a, (![0, 0] : Fin 2 → Nat) a + S8x32.size a ≤ S8x32.size a
  h_S8x32 : 0 < S8x32.numel
  inb_S32_S32_0 : ∀ a, (![0] : Fin 1 → Nat) a + S32.size a ≤ S32.size a
  h_S32 : 0 < S32.numel
  shapeCasts_S32_S1x32 : S32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  inb_S2000x2_S2000x2_0_0 : ∀ a, (![0, 0] : Fin 2 → Nat) a + S2000x2.size a ≤ S2000x2.size a
  h_S2000x2 : 0 < S2000x2.numel
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  concatenates_S8000x2_S8000x2_S8000x4_d1 : Shape.Concatenates [S8000x2, S8000x2] S8000x4 1
  inb_S4x32_S4x32_0_0 : ∀ a, (![0, 0] : Fin 2 → Nat) a + S4x32.size a ≤ S4x32.size a
  h_S4x32 : 0 < S4x32.numel
  inb_S32x4_S32x4_0_0 : ∀ a, (![0, 0] : Fin 2 → Nat) a + S32x4.size a ≤ S32x4.size a
  h_S32x4 : 0 < S32x4.numel
  inb_S4_S4_0 : ∀ a, (![0] : Fin 1 → Nat) a + S4.size a ≤ S4.size a
  h_S4 : 0 < S4.numel
  shapeCasts_S4_S1x4 : S4.ShapeCasts S1x4
  broadcasts_S1x4_S8000x4 : S1x4.Broadcasts S8000x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S8000x8_S8x32_S8000x32_1_0_0_1_n_n_wf : DotDims.WF S8000x8 S8x32 S8000x32 [1] [0] [0] [1] [] []
  dot_S8000x32_S32x32_S8000x32_1_0_0_1_n_n_wf : DotDims.WF S8000x32 S32x32 S8000x32 [1] [0] [0] [1] [] []
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S2000x32_S32x2_S2000x2_1_0_0_1_n_n_wf : DotDims.WF S2000x32 S32x2 S2000x2 [1] [0] [0] [1] [] []
  gather_S100000x2_S3200000x1_S3200000x2_1_0_n_n_0_1_12_wf : GatherDims.WF S100000x2 S3200000x1 S3200000x2 [1] [0] [] [0] [] 1 ![1, 2]
  dot_S8000x4_S4x32_S8000x32_1_0_0_1_n_n_wf : DotDims.WF S8000x4 S4x32 S8000x32 [1] [0] [0] [1] [] []
  dot_S8000x32_S32x4_S8000x4_1_0_0_1_n_n_wf : DotDims.WF S8000x32 S32x4 S8000x4 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S3200000x4.size a
  hwx0_0 : ∀ i : grid0.Coords, EltTy.bits .f32 = 32 ∨ (Rect.block (s := S3200000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S3200000x4.size a
  hwx0_1 : ∀ i : grid0.Coords, EltTy.bits .f32 = 32 ∨ (Rect.block (s := S3200000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32.size a ≤ S8x32.size a
  hwx0_2 : ∀ i : grid0.Coords, EltTy.bits .f32 = 32 ∨ (Rect.block (s := S8x32) S8x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x32.size a ≤ S3200000x32.size a
  hwx0_6 : ∀ i : grid0.Coords, EltTy.bits .f32 = 32 ∨ (Rect.block (s := S3200000x32) S8000x32.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x2.size a ≤ S100000x2.size a
  hwx1_1 : ∀ i : grid1.Coords, EltTy.bits .f32 = 32 ∨ (Rect.block (s := S100000x2) S2000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2.size a ≤ S2.size a
  hwx1_3 : ∀ i : grid1.Coords, EltTy.bits .f32 = 32 ∨ (Rect.block (s := S2) S2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x2.size a ≤ S32x2.size a
  hwx1_4 : ∀ i : grid1.Coords, EltTy.bits .f32 = 32 ∨ (Rect.block (s := S32x2) S32x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2.size a ≤ S2.size a
  hwx1_5 : ∀ i : grid1.Coords, EltTy.bits .f32 = 32 ∨ (Rect.block (s := S2) S2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x2.size a ≤ S100000x2.size a
  hwx1_6 : ∀ i : grid1.Coords, EltTy.bits .f32 = 32 ∨ (Rect.block (s := S100000x2) S2000x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x2.size a ≤ S100000x2.size a
  hwx1_7 : ∀ i : grid1.Coords, EltTy.bits .f32 = 32 ∨ (Rect.block (s := S100000x2) S2000x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x2.size a ≤ S100000x2.size a
  hwx1_8 : ∀ i : grid1.Coords, EltTy.bits .f32 = 32 ∨ (Rect.block (s := S100000x2) S2000x2.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x2.size a ≤ S3200000x2.size a
  hwx2_0 : ∀ i : grid2.Coords, EltTy.bits .f32 = 32 ∨ (Rect.block (s := S3200000x2) S8000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x2.size a ≤ S3200000x2.size a
  hwx2_1 : ∀ i : grid2.Coords, EltTy.bits .f32 = 32 ∨ (Rect.block (s := S3200000x2) S8000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x32.size a ≤ S4x32.size a
  hwx2_2 : ∀ i : grid2.Coords, EltTy.bits .f32 = 32 ∨ (Rect.block (s := S4x32) S4x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32.size a ≤ S32.size a
  hwx2_5 : ∀ i : grid2.Coords, EltTy.bits .f32 = 32 ∨ (Rect.block (s := S32) S32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x4.size a ≤ S32x4.size a
  hwx2_6 : ∀ i : grid2.Coords, EltTy.bits .f32 = 32 ∨ (Rect.block (s := S32x4) S32x4.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S4.size a ≤ S4.size a
  hwx2_7 : ∀ i : grid2.Coords, EltTy.bits .f32 = 32 ∨ (Rect.block (s := S4) S4.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S8000x4.size a ≤ S3200000x4.size a
  hwx2_8 : ∀ i : grid2.Coords, EltTy.bits .f32 = 32 ∨ (Rect.block (s := S3200000x4) S8000x4.size (cc2_transform_8 i) (hinb2_8 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S8000x8_S8x32_S8000x32_1_0_0_1_n_n : DotDims S8000x8 S8x32 S8000x32 where
  lhsContracting := [1]
  rhsContracting := [0]
  lhsNonContracting := [0]
  rhsNonContracting := [1]
  lhsBatch := []
  rhsBatch := []
  wf := dot_S8000x8_S8x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S2000x32_S32x2_S2000x2_1_0_0_1_n_n : DotDims S2000x32 S32x2 S2000x2 where
  lhsContracting := [1]
  rhsContracting := [0]
  lhsNonContracting := [0]
  rhsNonContracting := [1]
  lhsBatch := []
  rhsBatch := []
  wf := dot_S2000x32_S32x2_S2000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S8000x4_S4x32_S8000x32_1_0_0_1_n_n : DotDims S8000x4 S4x32 S8000x32 where
  lhsContracting := [1]
  rhsContracting := [0]
  lhsNonContracting := [0]
  rhsNonContracting := [1]
  lhsBatch := []
  rhsBatch := []
  wf := dot_S8000x4_S4x32_S8000x32_1_0_0_1_n_n_wf
def dot_S8000x32_S32x4_S8000x4_1_0_0_1_n_n : DotDims S8000x32 S32x4 S8000x4 where
  lhsContracting := [1]
  rhsContracting := [0]
  lhsNonContracting := [0]
  rhsNonContracting := [1]
  lhsBatch := []
  rhsBatch := []
  wf := dot_S8000x32_S32x4_S8000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v10) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S8000x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v29) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S2000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S32x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v30_0) S2000x2.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v30_1) S2000x2.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v30_2) S2000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37) S8000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S8000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S4x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg14) S32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg15) S32x4.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg16) S4.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v45) S8000x4.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x4 : Shape := ⟨2, ![100000, 4]⟩
abbrev S2x3200000 : Shape := ⟨2, ![2, 3200000]⟩
abbrev S100000x2 : Shape := ⟨2, ![100000, 2]⟩
abbrev S8x32 : Shape := ⟨2, ![8, 32]⟩
abbrev S32 : Shape := ⟨1, ![32]⟩
abbrev S32x32 : Shape := ⟨2, ![32, 32]⟩
abbrev S32x2 : Shape := ⟨2, ![32, 2]⟩
abbrev S2 : Shape := ⟨1, ![2]⟩
abbrev S4x32 : Shape := ⟨2, ![4, 32]⟩
abbrev S32x4 : Shape := ⟨2, ![32, 4]⟩
abbrev S4 : Shape := ⟨1, ![4]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x4 : Shape := ⟨2, ![3200000, 4]⟩
abbrev S3200000x8 : Shape := ⟨2, ![3200000, 8]⟩
abbrev S3200000x32 : Shape := ⟨2, ![3200000, 32]⟩
abbrev S1x32 : Shape := ⟨2, ![1, 32]⟩
abbrev S100000x32 : Shape := ⟨2, ![100000, 32]⟩
abbrev S100000x1 : Shape := ⟨2, ![100000, 1]⟩
abbrev S1x2 : Shape := ⟨2, ![1, 2]⟩
abbrev S3200000x2 : Shape := ⟨2, ![3200000, 2]⟩
abbrev S1x4 : Shape := ⟨2, ![1, 4]⟩

abbrev nBuf : Space → Nat
  | .hbm => 137
  | .vmem => 0
  | .smem => 0
  | _ => 0

abbrev hbmTy0_0 (i : Nat) : BufTy := match i % 128 with
  | 0 => ⟨S100000x4, .f32⟩
  | 1 => ⟨S2x3200000, .i32⟩
  | 2 => ⟨S100000x2, .f32⟩
  | 3 => ⟨S8x32, .f32⟩
  | 4 => ⟨S32, .f32⟩
  | 5 => ⟨S32x32, .f32⟩
  | 6 => ⟨S32, .f32⟩
  | 7 => ⟨S32x2, .f32⟩
  | 8 => ⟨S2, .f32⟩
  | 9 => ⟨S32x2, .f32⟩
  | 10 => ⟨S2, .f32⟩
  | 11 => ⟨S4x32, .f32⟩
  | 12 => ⟨S32, .f32⟩
  | 13 => ⟨S32x32, .f32⟩
  | 14 => ⟨S32, .f32⟩
  | 15 => ⟨S32x4, .f32⟩
  | 16 => ⟨S4, .f32⟩
  | 17 => ⟨S1x3200000, .i32⟩
  | 18 => ⟨S3200000, .i32⟩
  | 19 => ⟨S1x3200000, .i32⟩
  | 20 => ⟨S3200000, .i32⟩
  | 21 => ⟨S_, .i32⟩
  | 22 => ⟨S3200000, .i32⟩
  | 23 => ⟨S3200000, .i1⟩
  | 24 => ⟨S_, .i32⟩
  | 25 => ⟨S3200000, .i32⟩
  | 26 => ⟨S3200000, .i32⟩
  | 27 => ⟨S3200000, .i32⟩
  | 28 => ⟨S3200000x1, .i32⟩
  | 29 => ⟨S3200000x4, .f32⟩
  | 30 => ⟨S_, .i32⟩
  | 31 => ⟨S3200000, .i32⟩
  | 32 => ⟨S3200000, .i1⟩
  | 33 => ⟨S_, .i32⟩
  | 34 => ⟨S3200000, .i32⟩
  | 35 => ⟨S3200000, .i32⟩
  | 36 => ⟨S3200000, .i32⟩
  | 37 => ⟨S3200000x1, .i32⟩
  | 38 => ⟨S3200000x4, .f32⟩
  | 39 => ⟨S3200000x4, .f32⟩
  | 40 => ⟨S3200000x8, .f32⟩
  | 41 => ⟨S3200000x32, .f32⟩
  | 42 => ⟨S1x32, .f32⟩
  | 43 => ⟨S3200000x32, .f32⟩
  | 44 => ⟨S3200000x32, .f32⟩
  | 45 => ⟨S_, .f32⟩
  | 46 => ⟨S3200000x32, .f32⟩
  | 47 => ⟨S3200000x32, .f32⟩
  | 48 => ⟨S3200000x32, .f32⟩
  | 49 => ⟨S1x32, .f32⟩
  | 50 => ⟨S3200000x32, .f32⟩
  | 51 => ⟨S3200000x32, .f32⟩
  | 52 => ⟨S_, .f32⟩
  | 53 => ⟨S3200000x32, .f32⟩
  | 54 => ⟨S3200000x32, .f32⟩
  | 55 => ⟨S_, .f32⟩
  | 56 => ⟨S100000x32, .f32⟩
  | 57 => ⟨S3200000x1, .i32⟩
  | 58 => ⟨S100000x32, .f32⟩
  | 59 => ⟨S_, .f32⟩
  | 60 => ⟨S3200000x1, .f32⟩
  | 61 => ⟨S_, .f32⟩
  | 62 => ⟨S100000x1, .f32⟩
  | 63 => ⟨S3200000x1, .i32⟩
  | 64 => ⟨S100000x1, .f32⟩
  | 65 => ⟨S_, .f32⟩
  | 66 => ⟨S100000x1, .f32⟩
  | 67 => ⟨S100000x1, .f32⟩
  | 68 => ⟨S100000x32, .f32⟩
  | 69 => ⟨S100000x32, .f32⟩
  | 70 => ⟨S100000x2, .f32⟩
  | 71 => ⟨S1x2, .f32⟩
  | 72 => ⟨S100000x2, .f32⟩
  | 73 => ⟨S100000x2, .f32⟩
  | 74 => ⟨S100000x2, .f32⟩
  | 75 => ⟨S1x2, .f32⟩
  | 76 => ⟨S100000x2, .f32⟩
  | 77 => ⟨S100000x2, .f32⟩
  | 78 => ⟨S_, .f32⟩
  | 79 => ⟨S100000x2, .f32⟩
  | 80 => ⟨S100000x2, .f32⟩
  | 81 => ⟨S100000x2, .f32⟩
  | 82 => ⟨S100000x2, .f32⟩
  | 83 => ⟨S100000x2, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x2, .f32⟩
  | 93 => ⟨S_, .i32⟩
  | 94 => ⟨S3200000, .i32⟩
  | 95 => ⟨S3200000, .i1⟩
  | 96 => ⟨S_, .i32⟩
  | 97 => ⟨S3200000, .i32⟩
  | 98 => ⟨S3200000, .i32⟩
  | 99 => ⟨S3200000, .i32⟩
  | 100 => ⟨S3200000x1, .i32⟩
  | 101 => ⟨S3200000x2, .f32⟩
  | 102 => ⟨S3200000x2, .f32⟩
  | 103 => ⟨S3200000x4, .f32⟩
  | 104 => ⟨S3200000x32, .f32⟩
  | 105 => ⟨S1x32, .f32⟩
  | 106 => ⟨S3200000x32, .f32⟩
  | 107 => ⟨S3200000x32, .f32⟩
  | 108 => ⟨S_, .f32⟩
  | 109 => ⟨S3200000x32, .f32⟩
  | 110 => ⟨S3200000x32, .f32⟩
  | 111 => ⟨S3200000x32, .f32⟩
  | 112 => ⟨S1x32, .f32⟩
  | 113 => ⟨S3200000x32, .f32⟩
  | 114 => ⟨S3200000x32, .f32⟩
  | 115 => ⟨S_, .f32⟩
  | 116 => ⟨S3200000x32, .f32⟩
  | 117 => ⟨S3200000x32, .f32⟩
  | 118 => ⟨S3200000x4, .f32⟩
  | 119 => ⟨S1x4, .f32⟩
  | 120 => ⟨S3200000x4, .f32⟩
  | 121 => ⟨S3200000x4, .f32⟩
  | 122 => ⟨S_, .f32⟩
  | 123 => ⟨S100000x4, .f32⟩
  | 124 => ⟨S3200000x1, .i32⟩
  | 125 => ⟨S100000x4, .f32⟩
  | 126 => ⟨S_, .f32⟩
  | 127 => ⟨S3200000x1, .f32⟩
  | _ => ⟨S100000x4, .f32⟩

abbrev hbmTy0_1 (i : Nat) : BufTy := match i % 128 with
  | 0 => ⟨S_, .f32⟩
  | 1 => ⟨S100000x1, .f32⟩
  | 2 => ⟨S3200000x1, .i32⟩
  | 3 => ⟨S100000x1, .f32⟩
  | 4 => ⟨S_, .f32⟩
  | 5 => ⟨S100000x1, .f32⟩
  | 6 => ⟨S100000x1, .f32⟩
  | 7 => ⟨S100000x4, .f32⟩
  | 8 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c_1 : Ref sig .tc := ⟨.hbm, 30, rfl⟩
abbrev main_v11 : Ref sig .tc := ⟨.hbm, 31, rfl⟩
abbrev main_v12 : Ref sig .tc := ⟨.hbm, 32, rfl⟩
abbrev main_c_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call0_cst : Ref sig .tc := ⟨.hbm, 45, rfl⟩
abbrev main_call0_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call1_cst : Ref sig .tc := ⟨.hbm, 52, rfl⟩
abbrev main_call1_v0 : Ref sig .tc := ⟨.hbm, 53, rfl⟩
abbrev main_v29 : Ref sig .tc := ⟨.hbm, 54, rfl⟩
abbrev main_cst : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_3 : Ref sig .tc := ⟨.hbm, 59, rfl⟩
abbrev main_v33 : Ref sig .tc := ⟨.hbm, 60, rfl⟩
abbrev main_cst_4 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_5 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_cst_6 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_7 : Ref sig .tc := ⟨.hbm, 84, rfl⟩
abbrev main_v54 : Ref sig .tc := ⟨.hbm, 85, rfl⟩
abbrev main_v55 : Ref sig .tc := ⟨.hbm, 86, rfl⟩
abbrev main_c_8 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_c_9 : Ref sig .tc := ⟨.hbm, 93, rfl⟩
abbrev main_v61 : Ref sig .tc := ⟨.hbm, 94, rfl⟩
abbrev main_v62 : Ref sig .tc := ⟨.hbm, 95, rfl⟩
abbrev main_c_10 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_call2_cst : Ref sig .tc := ⟨.hbm, 108, rfl⟩
abbrev main_call2_v0 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_cst_11 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_cst_12 : Ref sig .tc := ⟨.hbm, 126, rfl⟩
abbrev main_v87 : Ref sig .tc := ⟨.hbm, 127, rfl⟩
abbrev main_cst_13 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_14 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x4_S3200000x4_S3200000x8_d1 : Shape.Concatenates [S3200000x4, S3200000x4] S3200000x8 1
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  bcast_S_S100000x32 : S_.BroadcastsInDim S100000x32 (![] : Fin 0 → Fin S100000x32.rank)
  bcast_S_S3200000x1 : S_.BroadcastsInDim S3200000x1 (![] : Fin 0 → Fin S3200000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  concatenates_S3200000x2_S3200000x2_S3200000x4_d1 : Shape.Concatenates [S3200000x2, S3200000x2] S3200000x4 1
  bcast_S4_S1x4_1 : S4.BroadcastsInDim S1x4 (![1] : Fin 1 → Fin S1x4.rank)
  bcast_S1x4_S3200000x4_0_1 : S1x4.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S3200000x8_S8x32_S3200000x32_1_0_0_1_n_n_wf : DotDims.WF S3200000x8 S8x32 S3200000x32 [1] [0] [0] [1] [] []
  dot_S3200000x32_S32x32_S3200000x32_1_0_0_1_n_n_wf : DotDims.WF S3200000x32 S32x32 S3200000x32 [1] [0] [0] [1] [] []
  scatter_S100000x32_S3200000x1_S3200000x32_1_0_0_1_wf : ScatterDims.WF S100000x32 S3200000x1 S3200000x32 [1] [0] [0] 1
  scatter_S100000x1_S3200000x1_S3200000x1_1_0_0_1_wf : ScatterDims.WF S100000x1 S3200000x1 S3200000x1 [1] [0] [0] 1
  dot_S100000x32_S32x2_S100000x2_1_0_0_1_n_n_wf : DotDims.WF S100000x32 S32x2 S100000x2 [1] [0] [0] [1] [] []
  gather_S100000x2_S3200000x1_S3200000x2_1_0_n_n_0_1_12_wf : GatherDims.WF S100000x2 S3200000x1 S3200000x2 [1] [0] [] [0] [] 1 ![1, 2]
  dot_S3200000x4_S4x32_S3200000x32_1_0_0_1_n_n_wf : DotDims.WF S3200000x4 S4x32 S3200000x32 [1] [0] [0] [1] [] []
  dot_S3200000x32_S32x4_S3200000x4_1_0_0_1_n_n_wf : DotDims.WF S3200000x32 S32x4 S3200000x4 [1] [0] [0] [1] [] []
  scatter_S100000x4_S3200000x1_S3200000x4_1_0_0_1_wf : ScatterDims.WF S100000x4 S3200000x1 S3200000x4 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x8_S8x32_S3200000x32_1_0_0_1_n_n : DotDims S3200000x8 S8x32 S3200000x32 where
  lhsContracting := [1]
  rhsContracting := [0]
  lhsNonContracting := [0]
  rhsNonContracting := [1]
  lhsBatch := []
  rhsBatch := []
  wf := dot_S3200000x8_S8x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x4_S4x32_S3200000x32_1_0_0_1_n_n : DotDims S3200000x4 S4x32 S3200000x32 where
  lhsContracting := [1]
  rhsContracting := [0]
  lhsNonContracting := [0]
  rhsNonContracting := [1]
  lhsBatch := []
  rhsBatch := []
  wf := dot_S3200000x4_S4x32_S3200000x32_1_0_0_1_n_n_wf
def dot_S3200000x32_S32x4_S3200000x4_1_0_0_1_n_n : DotDims S3200000x32 S32x4 S3200000x4 where
  lhsContracting := [1]
  rhsContracting := [0]
  lhsNonContracting := [0]
  rhsNonContracting := [1]
  lhsBatch := []
  rhsBatch := []
  wf := dot_S3200000x32_S32x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.KernelRun.lean ====
/-
  The idealized kernel's run with its three results named.

  The program is three pipelined regions among four stretches of host operations. Its run ends with every buffer
  that is not scoped to a region at the contents the last stretch leaves: the fold of the seven segments from the
  launch memory. The frame keeps of this only that the arguments are unchanged; here the three result buffers are
  read off the same final contents as well.
-/
import proofs.«112424_j2731599200743_2_alg».proof.Proof.KernelIdealFrameP

set_option maxRecDepth 16384

noncomputable section

namespace Cert.KernelIdeal.Hand

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with each result buffer at the last
    boundary's contents and the arguments as launched: the launch over the seven segments, the last thread state
    read against the final state. -/
theorem run_named : θ_run defs (onTc (τ := τ) (main (F := F))) ⟨m, fun _ => 0, ρ⟩ (fun r => ∀ c : Dev nD,
      r.2.mem ((c.tc : Thread nD τ).loc main_v52) = W7 m ρ c (Proc.devRef .tc main_v52)
      ∧ r.2.mem ((c.tc : Thread nD τ).loc main_v30_0) = W7 m ρ c (Proc.devRef .tc main_v30_0)
      ∧ r.2.mem ((c.tc : Thread nD τ).loc main_v30_1) = W7 m ρ c (Proc.devRef .tc main_v30_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v52 (by decide)),
       h c _ (mem_uc main_v30_0 (by decide)),
       h c _ (mem_uc main_v30_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c)⟩)

end Cert.KernelIdeal.Hand

end
-- ==== Proof.RefTerms.lean ====
/-
  The reference's results as a composition of named stages.

  The network: with dst and src the two rows of the edge list, xi = x[dst], xj = x[src];
  h = mean over the edges into each node of the two-layer perceptron of (xi, xj − xi); mu and log_var are the two
  linear heads of h; z = mu + eps · exp (½ log_var); the output is the same edge mean of the three-layer perceptron
  of (z[dst], z[src] − z[dst]). The mean divides the edge sum by max(count, 1), the count being the edge sum of ones.
  Each stage below is the host's own spelling of it; composed, they are literally the terms the reference's run
  ends at, which is what the last three theorems say.
-/
import proofs.«112424_j2731599200743_2_alg».proof.Proof.Gen.ReferenceIdeal.Run
import Idealize.ShloMosaic.PureOps.Ideal

noncomputable section

namespace Cert.RefTerms

open Cert.ReferenceIdeal Cert.ReferenceIdeal.Gen Cert.ReferenceIdeal.Value Idealize.ShloMosaic Idealize.ShloMosaic.TcCoe Idealize.SL.Sem

/-- The target node of every edge: row 1 of the edge list. -/
def dstOf (ei : IVec S2x3200000 32) : IVec S3200000 32 :=
  shapeCast S3200000 (extractStridedSlice S1x3200000 ![1, 0] ei slices_S2x3200000_S1x3200000_1_0) shapeCasts_S1x3200000_S3200000

/-- The source node of every edge: row 0 of the edge list. -/
def srcOf (ei : IVec S2x3200000 32) : IVec S3200000 32 :=
  shapeCast S3200000 (extractStridedSlice S1x3200000 ![0, 0] ei slices_S2x3200000_S1x3200000_0_0) shapeCasts_S1x3200000_S3200000

/-- Node numbers as a column of gather start indices, a negative number counted from the end. -/
def startCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- Node numbers as a column of scatter indices. -/
def scatCol (v : IVec S3200000 32) : IVec S3200000x1 32 :=
  broadcastInDim S3200000x1 ![0] bcast_S3200000_S3200000x1_0 v

/-- Rows of a four-column node table picked per edge. -/
def rows4 (x : FVec Ideal S100000x4 .f32) (i : IVec S3200000x1 32) : FVec Ideal S3200000x4 .f32 :=
  Host.gather gather_S100000x4_S3200000x1_S3200000x4_1_0_n_n_0_1_14 x i

/-- Rows of a two-column node table picked per edge. -/
def rows2 (x : FVec Ideal S100000x2 .f32) (i : IVec S3200000x1 32) : FVec Ideal S3200000x2 .f32 :=
  Host.gather gather_S100000x2_S3200000x1_S3200000x2_1_0_n_n_0_1_12 x i

/-- The encoder's edge perceptron, two rectified layers on (xi, xj − xi). -/
def encH (xi xj : FVec Ideal S3200000x4 .f32) (W1 : FVec Ideal S8x32 .f32) (b1 : FVec Ideal S32 .f32)
    (W2 : FVec Ideal S32x32 .f32) (b2 : FVec Ideal S32 .f32) : FVec Ideal S3200000x32 .f32 :=
  maximumf (addf (Host.dotGeneral (F := Ideal) dot_S3200000x32_S32x32_S3200000x32_1_0_0_1_n_n none (maximumf (addf (Host.dotGeneral (F := Ideal) dot_S3200000x8_S8x32_S3200000x32_1_0_0_1_n_n none (concatenate S3200000x8 1 [⟨S3200000x4, xi⟩, ⟨S3200000x4, (subf xj xi)⟩] concatenates_S3200000x4_S3200000x4_S3200000x8_d1) W1) (broadcastInDim S3200000x32 ![0, 1] bcast_S1x32_S3200000x32_0_1 (broadcastInDim S1x32 ![1] bcast_S32_S1x32_1 b1))) (broadcastInDim S3200000x32 ![] bcast_S_S3200000x32 (constant (F := Ideal) S_ .f32 0x00000000#32))) W2) (broadcastInDim S3200000x32 ![0, 1] bcast_S1x32_S3200000x32_0_1 (broadcastInDim S1x32 ![1] bcast_S32_S1x32_1 b2))) (broadcastInDim S3200000x32 ![] bcast_S_S3200000x32 (constant (F := Ideal) S_ .f32 0x00000000#32))

/-- The decoder's edge perceptron, two rectified layers and a linear one on (zi, zj − zi). -/
def decH (zi zj : FVec Ideal S3200000x2 .f32) (W1 : FVec Ideal S4x32 .f32) (b1 : FVec Ideal S32 .f32)
    (W2 : FVec Ideal S32x32 .f32) (b2 : FVec Ideal S32 .f32) (W3 : FVec Ideal S32x4 .f32) (b3 : FVec Ideal S4 .f32) :
    FVec Ideal S3200000x4 .f32 :=
  addf (Host.dotGeneral (F := Ideal) dot_S3200000x32_S32x4_S3200000x4_1_0_0_1_n_n none (maximumf (addf (Host.dotGeneral (F := Ideal) dot_S3200000x32_S32x32_S3200000x32_1_0_0_1_n_n none (maximumf (addf (Host.dotGeneral (F := Ideal) dot_S3200000x4_S4x32_S3200000x32_1_0_0_1_n_n none (concatenate S3200000x4 1 [⟨S3200000x2, zi⟩, ⟨S3200000x2, (subf zj zi)⟩] concatenates_S3200000x2_S3200000x2_S3200000x4_d1) W1) (broadcastInDim S3200000x32 ![0, 1] bcast_S1x32_S3200000x32_0_1 (broadcastInDim S1x32 ![1] bcast_S32_S1x32_1 b1))) (broadcastInDim S3200000x32 ![] bcast_S_S3200000x32 (constant (F := Ideal) S_ .f32 0x00000000#32))) W2) (broadcastInDim S3200000x32 ![0, 1] bcast_S1x32_S3200000x32_0_1 (broadcastInDim S1x32 ![1] bcast_S32_S1x32_1 b2))) (broadcastInDim S3200000x32 ![] bcast_S_S3200000x32 (constant (F := Ideal) S_ .f32 0x00000000#32))) W3) (broadcastInDim S3200000x4 ![0, 1] bcast_S1x4_S3200000x4_0_1 (broadcastInDim S1x4 ![1] bcast_S4_S1x4_1 b3))

/-- A count made at least one, so that a node no edge points at divides by one. -/
def atLeastOne (cnt : FVec Ideal S100000x1 .f32) : FVec Ideal S100000x1 .f32 :=
  maximumf cnt (broadcastInDim S100000x1 ![] bcast_S_S100000x1 (constant (F := Ideal) S_ .f32 0x3F800000#32))

/-- The number of edges into each node: the edge sum of ones. -/
def rawCountH (d : IVec S3200000 32) : FVec Ideal S100000x1 .f32 :=
  Host.scatterAdd (F := Ideal) scatter_S100000x1_S3200000x1_S3200000x1_1_0_0_1 (broadcastInDim S100000x1 ![] bcast_S_S100000x1 (constant (F := Ideal) S_ .f32 0x00000000#32)) (broadcastInDim S3200000x1 ![0] bcast_S3200000_S3200000x1_0 d) (broadcastInDim S3200000x1 ![] bcast_S_S3200000x1 (constant (F := Ideal) S_ .f32 0x3F800000#32))

/-- The number of edges into each node, at least one. -/
def countH (d : IVec S3200000 32) : FVec Ideal S100000x1 .f32 := atLeastOne (rawCountH d)

/-- The edge sum of 32-wide messages into each node divided by a column of counts. -/
def meanBy32 (d : IVec S3200000 32) (cnt : FVec Ideal S100000x1 .f32) (msg : FVec Ideal S3200000x32 .f32) : FVec Ideal S100000x32 .f32 :=
  Host.divf (F := Ideal) (Host.scatterAdd (F := Ideal) scatter_S100000x32_S3200000x1_S3200000x32_1_0_0_1 (broadcastInDim S100000x32 ![] bcast_S_S100000x32 (constant (F := Ideal) S_ .f32 0x00000000#32)) (broadcastInDim S3200000x1 ![0] bcast_S3200000_S3200000x1_0 d) msg) (broadcastInDim S100000x32 ![0, 1] bcast_S100000x1_S100000x32_0_1 cnt)

/-- The edge sum of 4-wide messages into each node divided by a column of counts. -/
def meanBy4 (d : IVec S3200000 32) (cnt : FVec Ideal S100000x1 .f32) (msg : FVec Ideal S3200000x4 .f32) : FVec Ideal S100000x4 .f32 :=
  Host.divf (F := Ideal) (Host.scatterAdd (F := Ideal) scatter_S100000x4_S3200000x1_S3200000x4_1_0_0_1 (broadcastInDim S100000x4 ![] bcast_S_S100000x4 (constant (F := Ideal) S_ .f32 0x00000000#32)) (broadcastInDim S3200000x1 ![0] bcast_S3200000_S3200000x1_0 d) msg) (broadcastInDim S100000x4 ![0, 1] bcast_S100000x1_S100000x4_0_1 cnt)

/-- The mean of 32-wide edge messages over the edges into each node. -/
def mean32 (d : IVec S3200000 32) (msg : FVec Ideal S3200000x32 .f32) : FVec Ideal S100000x32 .f32 :=
  meanBy32 d (countH d) msg

/-- The mean of 4-wide edge messages over the edges into each node. -/
def mean4 (d : IVec S3200000 32) (msg : FVec Ideal S3200000x4 .f32) : FVec Ideal S100000x4 .f32 :=
  meanBy4 d (countH d) msg

/-- A linear head of the node features. -/
def headH (h : FVec Ideal S100000x32 .f32) (W : FVec Ideal S32x2 .f32) (b : FVec Ideal S2 .f32) : FVec Ideal S100000x2 .f32 :=
  addf (Host.dotGeneral (F := Ideal) dot_S100000x32_S32x2_S100000x2_1_0_0_1_n_n none h W) (broadcastInDim S100000x2 ![0, 1] bcast_S1x2_S100000x2_0_1 (broadcastInDim S1x2 ![1] bcast_S2_S1x2_1 b))

/-- The reparameterised sample. -/
def sampleH (mu lv eps : FVec Ideal S100000x2 .f32) : FVec Ideal S100000x2 .f32 :=
  addf mu (mulf eps (Host.exp (F := Ideal) (mulf (broadcastInDim S100000x2 ![] bcast_S_S100000x2 (constant (F := Ideal) S_ .f32 0x3F000000#32)) lv)))

/-- The encoder's node features. -/
def hiddenT (x : FVec Ideal S100000x4 .f32) (ei : IVec S2x3200000 32) (W1 : FVec Ideal S8x32 .f32) (b1 : FVec Ideal S32 .f32)
    (W2 : FVec Ideal S32x32 .f32) (b2 : FVec Ideal S32 .f32) : FVec Ideal S100000x32 .f32 :=
  mean32 (dstOf ei) (encH (rows4 x (startCol (dstOf ei))) (rows4 x (startCol (srcOf ei))) W1 b1 W2 b2)

/-- The network's output from the sample. -/
def outT (z : FVec Ideal S100000x2 .f32) (ei : IVec S2x3200000 32) (W1 : FVec Ideal S4x32 .f32) (b1 : FVec Ideal S32 .f32)
    (W2 : FVec Ideal S32x32 .f32) (b2 : FVec Ideal S32 .f32) (W3 : FVec Ideal S32x4 .f32) (b3 : FVec Ideal S4 .f32) :
    FVec Ideal S100000x4 .f32 :=
  mean4 (dstOf ei) (decH (rows2 z (startCol (dstOf ei))) (rows2 z (startCol (srcOf ei))) W1 b1 W2 b2 W3 b3)

variable (m : (ℓ : Loc nD τ sig) → Buf (Elt Ideal) ℓ) (c : Dev nD)

/-- The reference's mean result is the mean head of the encoder's node features. -/
theorem res_mu : res_main_v44 (F := Ideal) m c
    = headH (hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  unfold res_main_v44; rfl

/-- The reference's log-variance result is the other head. -/
theorem res_lv : res_main_v48 (F := Ideal) m c
    = headH (hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)) := by
  unfold res_main_v48; rfl

/-- The reference's output is the decoder's edge mean on the sample. -/
theorem res_out : res_main_v94 (F := Ideal) m c
    = outT (sampleH
        (headH (hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))
        (headH (hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)))
        (m ((c.tc : Thread nD τ).loc main_arg2)))
      (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold res_main_v94; rfl

end Cert.RefTerms

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«112424_j2731599200743_2_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«112424_j2731599200743_2_alg».proof.Proof.LibMatmulPlain
import proofs.«112424_j2731599200743_2_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibConcatCols.lean ====
/-
  Two matrices with the same number of rows joined side by side, read at an entry.
-/
import Idealize.ShloMosaic.Lib.Pipeline.Value
import Idealize.ShloMosaic.Lib.ValueIdx

noncomputable section

namespace Idealize.ShloMosaic.ConcatCols

open Idealize.ShloMosaic Idealize.ShloMosaic.ValueIdx

variable {α : Type}

/-- An `[n, a]` matrix and an `[n, b]` matrix joined along the columns into `[n, a + b]` read, at `(p, q)`, the
    first at `(p, q)` when `q` is one of the first `a` columns and the second at `(p, q − a)` otherwise: the
    case split of `Fin (a + b)` into its two ranges. Arbitrary extents and element type. -/
theorem concat_cols_apply {n a b : ℕ} (x₁ : (⟨2, ![n, a]⟩ : Shape).Idx → α) (x₂ : (⟨2, ![n, b]⟩ : Shape).Idx → α)
    (h : Shape.Concatenates [(⟨2, ![n, a]⟩ : Shape), (⟨2, ![n, b]⟩ : Shape)] (⟨2, ![n, a + b]⟩ : Shape) 1)
    (p : Fin n) (q : Fin (a + b)) :
    concatenate (⟨2, ![n, a + b]⟩ : Shape) 1 [⟨(⟨2, ![n, a]⟩ : Shape), x₁⟩, ⟨(⟨2, ![n, b]⟩ : Shape), x₂⟩] h (ix2 p q)
      = Fin.addCases (motive := fun _ => α) (fun k => x₁ (ix2 p k)) (fun k => x₂ (ix2 p k)) q := by
  refine Fin.addCases (fun k => ?_) (fun k => ?_) q
  · rw [Fin.addCases_left]
    exact concatenate_pair_apply_left 1 x₁ x₂ h (ix2 p (Fin.castAdd b k)) rfl (ix2 p k)
      (fun ax => by match ax with | ⟨0, _⟩ => rfl | ⟨1, _⟩ => rfl)
  · rw [Fin.addCases_right]
    exact concatenate_pair_apply_right 1 x₁ x₂ h (ix2 p (Fin.natAdd a k)) rfl rfl (ix2 p k)
      (fun ax hax => by match ax with | ⟨0, _⟩ => rfl | ⟨1, _⟩ => exact absurd rfl hax)
      (by show k.val + a = a + k.val; exact Nat.add_comm _ _)

end Idealize.ShloMosaic.ConcatCols

end
-- ==== Proof.LibEdgeMlp.lean ====
/-
  The layers of a small message-passing network read at an entry, over the extended reals.

  One row of a dense layer is a_k ↦ Σ_k a_k · W (k, q) + b q; a rectifier is the maximum with zero; the features of
  an edge are the target node's row followed by the difference source − target. A two-layer perceptron on the edge
  features is rectifier ∘ dense ∘ rectifier ∘ dense, a three-layer one a further dense layer on top of it.

  The same layers are written in two spellings: on the matrix unit (operands narrowed to bf16, which changes nothing
  on the extended reals; the product taken into a zero accumulator; the bias held as one row and broadcast over the
  rows; the zero of the rectifier a broadcast scalar) and on the host (dot_general; the bias broadcast first to one
  row and then over the rows; the zero a broadcast rank-0 constant). Each spelling, read at the entry (p, q), is the
  row function of row p of its operands. The number of rows M is arbitrary, which is what lets a block of rows and
  the whole array be read by the same lemma.
-/
import proofs.«112424_j2731599200743_2_alg».proof.Proof.LibDense
import proofs.«112424_j2731599200743_2_alg».proof.Proof.LibConcatCols
import Idealize.ShloMosaic.Lib.ValueLayout
import Idealize.ShloMosaic.Lib.Pipeline.Value

noncomputable section

open scoped BigOperators

namespace Cert.Layers

open Idealize.ShloMosaic Idealize.ShloMosaic.ValueIdx

/-- The f32 word of +0.0 as an extended real. It is the same word in both spellings, so it is never evaluated. -/
abbrev zeroW : EReal := Ideal.ofBits .f32 0x00000000#32

/-- One row of a dense layer: the row `a` against column `q` of the weights, plus the bias at `q`. -/
def dense {K N : ℕ} (W : (⟨2, ![K, N]⟩ : Shape).Idx → EReal) (b : (⟨1, ![N]⟩ : Shape).Idx → EReal)
    (a : Fin K → EReal) (q : Fin N) : EReal :=
  ∑ k : Fin K, a k * W (ix2 k q) + b (ix1 q)

/-- The rectifier. -/
def relu (x : EReal) : EReal := max x zeroW

/-- The features of an edge: the target's row, then source − target. -/
def feat {d : ℕ} (a b : Fin d → EReal) : Fin (d + d) → EReal :=
  Fin.addCases (motive := fun _ => EReal) a (fun i => b i - a i)

/-- A two-layer rectified perceptron on the edge features, one row. -/
def mlp2 {d H N : ℕ} (W1 : (⟨2, ![d + d, H]⟩ : Shape).Idx → EReal) (b1 : (⟨1, ![H]⟩ : Shape).Idx → EReal)
    (W2 : (⟨2, ![H, N]⟩ : Shape).Idx → EReal) (b2 : (⟨1, ![N]⟩ : Shape).Idx → EReal)
    (a b : Fin d → EReal) (q : Fin N) : EReal :=
  relu (dense W2 b2 (fun k => relu (dense W1 b1 (feat a b) k)) q)

/-- A third, linear, layer on top of it. -/
def mlp3 {d H N O : ℕ} (W1 : (⟨2, ![d + d, H]⟩ : Shape).Idx → EReal) (b1 : (⟨1, ![H]⟩ : Shape).Idx → EReal)
    (W2 : (⟨2, ![H, N]⟩ : Shape).Idx → EReal) (b2 : (⟨1, ![N]⟩ : Shape).Idx → EReal)
    (W3 : (⟨2, ![N, O]⟩ : Shape).Idx → EReal) (b3 : (⟨1, ![O]⟩ : Shape).Idx → EReal)
    (a b : Fin d → EReal) (q : Fin O) : EReal :=
  dense W3 b3 (fun k => mlp2 W1 b1 W2 b2 a b k) q

variable {M : ℕ}

/-! ## The matrix unit's spelling -/

/-- A dense layer on the matrix unit, at an entry. -/
theorem kdense_apply {K N : ℕ} {φ₁ φ₂ : FTy} (A : FVec Ideal ⟨2, ![M, K]⟩ φ₁) (B : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ (shapeCast ⟨2, ![1, N]⟩ b hc) hb) (ix2 p q)
      = dense B b (fun k => A (ix2 p k)) q := by
  rw [Dense.matmul_bias_apply, shapeCast_a_1a_apply]
  rfl

/-- The edge features on the matrix unit, at an entry. -/
theorem kfeat_apply {d : ℕ} (x0 x1 : FVec Ideal ⟨2, ![M, d]⟩ .f32)
    (hs : (⟨2, ![M, d]⟩ : Shape).ShapeCasts ⟨2, ![M, d]⟩)
    (hcat : Shape.Concatenates [(⟨2, ![M, d]⟩ : Shape), (⟨2, ![M, d]⟩ : Shape)] (⟨2, ![M, d + d]⟩ : Shape) 1)
    (p : Fin M) (j : Fin (d + d)) :
    concatenate (⟨2, ![M, d + d]⟩ : Shape) 1
        [⟨(⟨2, ![M, d]⟩ : Shape), shapeCast ⟨2, ![M, d]⟩ x0 hs⟩,
         ⟨(⟨2, ![M, d]⟩ : Shape), subf (shapeCast ⟨2, ![M, d]⟩ x1 hs) (shapeCast ⟨2, ![M, d]⟩ x0 hs)⟩] hcat (ix2 p j)
      = feat (fun i => x0 (ix2 p i)) (fun i => x1 (ix2 p i)) j := by
  rw [shapeCast_self, shapeCast_self, ConcatCols.concat_cols_apply]
  rfl

/-- The two-layer perceptron on the matrix unit, at an entry. -/
theorem kmlp2_apply {d H N : ℕ} (x0 x1 : FVec Ideal ⟨2, ![M, d]⟩ .f32) (W1 : FVec Ideal ⟨2, ![d + d, H]⟩ .f32)
    (b1 : FVec Ideal ⟨1, ![H]⟩ .f32) (W2 : FVec Ideal ⟨2, ![H, N]⟩ .f32) (b2 : FVec Ideal ⟨1, ![N]⟩ .f32)
    (hs : (⟨2, ![M, d]⟩ : Shape).ShapeCasts ⟨2, ![M, d]⟩)
    (hcat : Shape.Concatenates [(⟨2, ![M, d]⟩ : Shape), (⟨2, ![M, d]⟩ : Shape)] (⟨2, ![M, d + d]⟩ : Shape) 1)
    (hbf : FTy.bf16.bits < FTy.f32.bits)
    (hc1 : (⟨1, ![H]⟩ : Shape).ShapeCasts ⟨2, ![1, H]⟩) (hb1 : (⟨2, ![1, H]⟩ : Shape).Broadcasts ⟨2, ![M, H]⟩)
    (hc2 : (⟨1, ![N]⟩ : Shape).ShapeCasts ⟨2, ![1, N]⟩) (hb2 : (⟨2, ![1, N]⟩ : Shape).Broadcasts ⟨2, ![M, N]⟩)
    (p : Fin M) (q : Fin N) :
    maximumf (addf (matmul (DotDims.plain M H N) none
          (truncf .bf16 (maximumf (addf (matmul (DotDims.plain M (d + d) H) none
                (truncf .bf16 (concatenate (⟨2, ![M, d + d]⟩ : Shape) 1
                  [⟨(⟨2, ![M, d]⟩ : Shape), shapeCast ⟨2, ![M, d]⟩ x0 hs⟩,
                   ⟨(⟨2, ![M, d]⟩ : Shape), subf (shapeCast ⟨2, ![M, d]⟩ x1 hs) (shapeCast ⟨2, ![M, d]⟩ x0 hs)⟩] hcat) hbf)
                (truncf .bf16 W1 hbf) (constant (F := Ideal) ⟨2, ![M, H]⟩ .f32 0x00000000#32))
              (broadcastTo ⟨2, ![M, H]⟩ (shapeCast ⟨2, ![1, H]⟩ b1 hc1) hb1))
            (broadcast ⟨2, ![M, H]⟩ (Scalar.ofBits .f32 0x00000000#32 : Ideal .f32))) hbf)
          (truncf .bf16 W2 hbf) (constant (F := Ideal) ⟨2, ![M, N]⟩ .f32 0x00000000#32))
        (broadcastTo ⟨2, ![M, N]⟩ (shapeCast ⟨2, ![1, N]⟩ b2 hc2) hb2))
      (broadcast ⟨2, ![M, N]⟩ (Scalar.ofBits .f32 0x00000000#32 : Ideal .f32)) (ix2 p q)
      = mlp2 W1 b1 W2 b2 (fun i => x0 (ix2 p i)) (fun i => x1 (ix2 p i)) q := by
  refine (congrArg relu (kdense_apply _ _ b2 hc2 hb2 p q)).trans ?_
  refine congrArg relu (congrArg (fun a => dense W2 b2 a q) (funext fun k => ?_))
  refine (congrArg relu (kdense_apply _ _ b1 hc1 hb1 p k)).trans ?_
  exact congrArg relu (congrArg (fun a => dense W1 b1 a k) (funext fun j => kfeat_apply x0 x1 hs hcat p j))

/-- The three-layer perceptron on the matrix unit, at an entry. -/
theorem kmlp3_apply {d H N O : ℕ} (x0 x1 : FVec Ideal ⟨2, ![M, d]⟩ .f32) (W1 : FVec Ideal ⟨2, ![d + d, H]⟩ .f32)
    (b1 : FVec Ideal ⟨1, ![H]⟩ .f32) (W2 : FVec Ideal ⟨2, ![H, N]⟩ .f32) (b2 : FVec Ideal ⟨1, ![N]⟩ .f32)
    (W3 : FVec Ideal ⟨2, ![N, O]⟩ .f32) (b3 : FVec Ideal ⟨1, ![O]⟩ .f32)
    (hs : (⟨2, ![M, d]⟩ : Shape).ShapeCasts ⟨2, ![M, d]⟩)
    (hcat : Shape.Concatenates [(⟨2, ![M, d]⟩ : Shape), (⟨2, ![M, d]⟩ : Shape)] (⟨2, ![M, d + d]⟩ : Shape) 1)
    (hbf : FTy.bf16.bits < FTy.f32.bits)
    (hc1 : (⟨1, ![H]⟩ : Shape).ShapeCasts ⟨2, ![1, H]⟩) (hb1 : (⟨2, ![1, H]⟩ : Shape).Broadcasts ⟨2, ![M, H]⟩)
    (hc2 : (⟨1, ![N]⟩ : Shape).ShapeCasts ⟨2, ![1, N]⟩) (hb2 : (⟨2, ![1, N]⟩ : Shape).Broadcasts ⟨2, ![M, N]⟩)
    (hc3 : (⟨1, ![O]⟩ : Shape).ShapeCasts ⟨2, ![1, O]⟩) (hb3 : (⟨2, ![1, O]⟩ : Shape).Broadcasts ⟨2, ![M, O]⟩)
    (p : Fin M) (q : Fin O) :
    addf (matmul (DotDims.plain M N O) none
        (truncf .bf16 (maximumf (addf (matmul (DotDims.plain M H N) none
          (truncf .bf16 (maximumf (addf (matmul (DotDims.plain M (d + d) H) none
                (truncf .bf16 (concatenate (⟨2, ![M, d + d]⟩ : Shape) 1
                  [⟨(⟨2, ![M, d]⟩ : Shape), shapeCast ⟨2, ![M, d]⟩ x0 hs⟩,
                   ⟨(⟨2, ![M, d]⟩ : Shape), subf (shapeCast ⟨2, ![M, d]⟩ x1 hs) (shapeCast ⟨2, ![M, d]⟩ x0 hs)⟩] hcat) hbf)
                (truncf .bf16 W1 hbf) (constant (F := Ideal) ⟨2, ![M, H]⟩ .f32 0x00000000#32))
              (broadcastTo ⟨2, ![M, H]⟩ (shapeCast ⟨2, ![1, H]⟩ b1 hc1) hb1))
            (broadcast ⟨2, ![M, H]⟩ (Scalar.ofBits .f32 0x00000000#32 : Ideal .f32))) hbf)
          (truncf .bf16 W2 hbf) (constant (F := Ideal) ⟨2, ![M, N]⟩ .f32 0x00000000#32))
        (broadcastTo ⟨2, ![M, N]⟩ (shapeCast ⟨2, ![1, N]⟩ b2 hc2) hb2))
      (broadcast ⟨2, ![M, N]⟩ (Scalar.ofBits .f32 0x00000000#32 : Ideal .f32))) hbf)
        (truncf .bf16 W3 hbf) (constant (F := Ideal) ⟨2, ![M, O]⟩ .f32 0x00000000#32))
      (broadcastTo ⟨2, ![M, O]⟩ (shapeCast ⟨2, ![1, O]⟩ b3 hc3) hb3) (ix2 p q)
      = mlp3 W1 b1 W2 b2 W3 b3 (fun i => x0 (ix2 p i)) (fun i => x1 (ix2 p i)) q := by
  refine (kdense_apply _ _ b3 hc3 hb3 p q).trans ?_
  exact congrArg (fun a => dense W3 b3 a q)
    (funext fun k => kmlp2_apply x0 x1 W1 b1 W2 b2 hs hcat hbf hc1 hb1 hc2 hb2 p k)

/-! ## The host's spelling -/

/-- A rank-0 constant broadcast to any shape, at an entry. -/
theorem bcast_scalar_apply {t : Shape} {α : Type} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- The host's rectifier, at an entry. -/
theorem hrelu_apply {s : Shape} (v : FVec Ideal s .f32) (h : (⟨0, ![]⟩ : Shape).BroadcastsInDim s ![]) (i : s.Idx) :
    maximumf v (broadcastInDim s ![] h (constant (F := Ideal) ⟨0, ![]⟩ .f32 0x00000000#32)) i = relu (v i) := by
  show max (v i) (broadcastInDim s ![] h (constant (F := Ideal) ⟨0, ![]⟩ .f32 0x00000000#32) i) = _
  rw [bcast_scalar_apply]
  rfl

/-- The host's dense layer, at an entry. -/
theorem hdense_apply {K N : ℕ} {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = dense B b (fun k => A (ix2 p k)) q :=
  Dense.dot_bias_apply A B b h1 h2 p q

/-- The host's edge features, at an entry. -/
theorem hfeat_apply {d : ℕ} (xi xj : FVec Ideal ⟨2, ![M, d]⟩ .f32)
    (hcat : Shape.Concatenates [(⟨2, ![M, d]⟩ : Shape), (⟨2, ![M, d]⟩ : Shape)] (⟨2, ![M, d + d]⟩ : Shape) 1)
    (p : Fin M) (j : Fin (d + d)) :
    concatenate (⟨2, ![M, d + d]⟩ : Shape) 1
        [⟨(⟨2, ![M, d]⟩ : Shape), xi⟩, ⟨(⟨2, ![M, d]⟩ : Shape), subf xj xi⟩] hcat (ix2 p j)
      = feat (fun i => xi (ix2 p i)) (fun i => xj (ix2 p i)) j := by
  rw [ConcatCols.concat_cols_apply]
  rfl

/-- The host's two-layer perceptron, at an entry. -/
theorem hmlp2_apply {d H N : ℕ} (xi xj : FVec Ideal ⟨2, ![M, d]⟩ .f32) (W1 : FVec Ideal ⟨2, ![d + d, H]⟩ .f32)
    (b1 : FVec Ideal ⟨1, ![H]⟩ .f32) (W2 : FVec Ideal ⟨2, ![H, N]⟩ .f32) (b2 : FVec Ideal ⟨1, ![N]⟩ .f32)
    (hcat : Shape.Concatenates [(⟨2, ![M, d]⟩ : Shape), (⟨2, ![M, d]⟩ : Shape)] (⟨2, ![M, d + d]⟩ : Shape) 1)
    (h1a : (⟨1, ![H]⟩ : Shape).BroadcastsInDim ⟨2, ![1, H]⟩ ![1])
    (h2a : (⟨2, ![1, H]⟩ : Shape).BroadcastsInDim ⟨2, ![M, H]⟩ ![0, 1])
    (hza : (⟨0, ![]⟩ : Shape).BroadcastsInDim ⟨2, ![M, H]⟩ ![])
    (h1b : (⟨1, ![N]⟩ : Shape).BroadcastsInDim ⟨2, ![1, N]⟩ ![1])
    (h2b : (⟨2, ![1, N]⟩ : Shape).BroadcastsInDim ⟨2, ![M, N]⟩ ![0, 1])
    (hzb : (⟨0, ![]⟩ : Shape).BroadcastsInDim ⟨2, ![M, N]⟩ ![])
    (p : Fin M) (q : Fin N) :
    maximumf (addf (Host.dotGeneral (F := Ideal) (DotDims.plain M H N) none
          (maximumf (addf (Host.dotGeneral (F := Ideal) (DotDims.plain M (d + d) H) none
                (concatenate (⟨2, ![M, d + d]⟩ : Shape) 1
                  [⟨(⟨2, ![M, d]⟩ : Shape), xi⟩, ⟨(⟨2, ![M, d]⟩ : Shape), subf xj xi⟩] hcat) W1)
              (broadcastInDim ⟨2, ![M, H]⟩ ![0, 1] h2a (broadcastInDim ⟨2, ![1, H]⟩ ![1] h1a b1)))
            (broadcastInDim ⟨2, ![M, H]⟩ ![] hza (constant (F := Ideal) ⟨0, ![]⟩ .f32 0x00000000#32))) W2)
        (broadcastInDim ⟨2, ![M, N]⟩ ![0, 1] h2b (broadcastInDim ⟨2, ![1, N]⟩ ![1] h1b b2)))
      (broadcastInDim ⟨2, ![M, N]⟩ ![] hzb (constant (F := Ideal) ⟨0, ![]⟩ .f32 0x00000000#32)) (ix2 p q)
      = mlp2 W1 b1 W2 b2 (fun i => xi (ix2 p i)) (fun i => xj (ix2 p i)) q := by
  refine (hrelu_apply _ hzb (ix2 p q)).trans ?_
  refine congrArg relu ((hdense_apply _ W2 b2 h1b h2b p q).trans ?_)
  refine congrArg (fun a => dense W2 b2 a q) (funext fun k => ?_)
  refine (hrelu_apply _ hza (ix2 p k)).trans ?_
  refine congrArg relu ((hdense_apply _ W1 b1 h1a h2a p k).trans ?_)
  exact congrArg (fun a => dense W1 b1 a k) (funext fun j => hfeat_apply xi xj hcat p j)

/-- The host's three-layer perceptron, at an entry. -/
theorem hmlp3_apply {d H N O : ℕ} (xi xj : FVec Ideal ⟨2, ![M, d]⟩ .f32) (W1 : FVec Ideal ⟨2, ![d + d, H]⟩ .f32)
    (b1 : FVec Ideal ⟨1, ![H]⟩ .f32) (W2 : FVec Ideal ⟨2, ![H, N]⟩ .f32) (b2 : FVec Ideal ⟨1, ![N]⟩ .f32)
    (W3 : FVec Ideal ⟨2, ![N, O]⟩ .f32) (b3 : FVec Ideal ⟨1, ![O]⟩ .f32)
    (hcat : Shape.Concatenates [(⟨2, ![M, d]⟩ : Shape), (⟨2, ![M, d]⟩ : Shape)] (⟨2, ![M, d + d]⟩ : Shape) 1)
    (h1a : (⟨1, ![H]⟩ : Shape).BroadcastsInDim ⟨2, ![1, H]⟩ ![1])
    (h2a : (⟨2, ![1, H]⟩ : Shape).BroadcastsInDim ⟨2, ![M, H]⟩ ![0, 1])
    (hza : (⟨0, ![]⟩ : Shape).BroadcastsInDim ⟨2, ![M, H]⟩ ![])
    (h1b : (⟨1, ![N]⟩ : Shape).BroadcastsInDim ⟨2, ![1, N]⟩ ![1])
    (h2b : (⟨2, ![1, N]⟩ : Shape).BroadcastsInDim ⟨2, ![M, N]⟩ ![0, 1])
    (hzb : (⟨0, ![]⟩ : Shape).BroadcastsInDim ⟨2, ![M, N]⟩ ![])
    (h1c : (⟨1, ![O]⟩ : Shape).BroadcastsInDim ⟨2, ![1, O]⟩ ![1])
    (h2c : (⟨2, ![1, O]⟩ : Shape).BroadcastsInDim ⟨2, ![M, O]⟩ ![0, 1])
    (p : Fin M) (q : Fin O) :
    addf (Host.dotGeneral (F := Ideal) (DotDims.plain M N O) none
      (maximumf (addf (Host.dotGeneral (F := Ideal) (DotDims.plain M H N) none
          (maximumf (addf (Host.dotGeneral (F := Ideal) (DotDims.plain M (d + d) H) none
                (concatenate (⟨2, ![M, d + d]⟩ : Shape) 1
                  [⟨(⟨2, ![M, d]⟩ : Shape), xi⟩, ⟨(⟨2, ![M, d]⟩ : Shape), subf xj xi⟩] hcat) W1)
              (broadcastInDim ⟨2, ![M, H]⟩ ![0, 1] h2a (broadcastInDim ⟨2, ![1, H]⟩ ![1] h1a b1)))
            (broadcastInDim ⟨2, ![M, H]⟩ ![] hza (constant (F := Ideal) ⟨0, ![]⟩ .f32 0x00000000#32))) W2)
        (broadcastInDim ⟨2, ![M, N]⟩ ![0, 1] h2b (broadcastInDim ⟨2, ![1, N]⟩ ![1] h1b b2)))
      (broadcastInDim ⟨2, ![M, N]⟩ ![] hzb (constant (F := Ideal) ⟨0, ![]⟩ .f32 0x00000000#32))) W3)
      (broadcastInDim ⟨2, ![M, O]⟩ ![0, 1] h2c (broadcastInDim ⟨2, ![1, O]⟩ ![1] h1c b3)) (ix2 p q)
      = mlp3 W1 b1 W2 b2 W3 b3 (fun i => xi (ix2 p i)) (fun i => xj (ix2 p i)) q := by
  refine (hdense_apply _ W3 b3 h1c h2c p q).trans ?_
  exact congrArg (fun a => dense W3 b3 a q)
    (funext fun k => hmlp2_apply xi xj W1 b1 W2 b2 hcat h1a h2a hza h1b h2b hzb p k)

/-! ## The two linear heads and the reparameterised sample: mu = h · W_mu + b_mu, log_var = h · W_var + b_var,
    z = mu + eps · exp (½ · log_var) -/

/-- The f32 word of 0.5 as an extended real; the same word in both spellings, never evaluated. -/
abbrev halfW : EReal := Ideal.ofBits .f32 0x3F000000#32

/-- The reparameterised sample from a mean, a noise value and a log-variance. -/
def reparam (mu e lv : EReal) : EReal := mu + e * Ideal.exp (halfW * lv)

/-- A linear head on the matrix unit, at an entry. -/
theorem khead_apply {K N : ℕ} (h : FVec Ideal ⟨2, ![M, K]⟩ .f32) (W : FVec Ideal ⟨2, ![K, N]⟩ .f32)
    (b : FVec Ideal ⟨1, ![N]⟩ .f32) (hs : (⟨2, ![M, K]⟩ : Shape).ShapeCasts ⟨2, ![M, K]⟩)
    (hbf : FTy.bf16.bits < FTy.f32.bits) (hc : (⟨1, ![N]⟩ : Shape).ShapeCasts ⟨2, ![1, N]⟩)
    (hb : (⟨2, ![1, N]⟩ : Shape).Broadcasts ⟨2, ![M, N]⟩) (p : Fin M) (q : Fin N) :
    addf (matmul (DotDims.plain M K N) none (truncf .bf16 (shapeCast ⟨2, ![M, K]⟩ h hs) hbf) (truncf .bf16 W hbf)
          (constant (F := Ideal) ⟨2, ![M, N]⟩ .f32 0x00000000#32))
        (broadcastTo ⟨2, ![M, N]⟩ (shapeCast ⟨2, ![1, N]⟩ b hc) hb) (ix2 p q)
      = dense W b (fun k => h (ix2 p k)) q := by
  rw [shapeCast_self]
  exact kdense_apply (truncf .bf16 h hbf) (truncf .bf16 W hbf) b hc hb p q

/-- The sample on the matrix unit, at an entry. -/
theorem ksample_apply {K N : ℕ} (h : FVec Ideal ⟨2, ![M, K]⟩ .f32) (eps : FVec Ideal ⟨2, ![M, N]⟩ .f32)
    (Wm : FVec Ideal ⟨2, ![K, N]⟩ .f32) (bm : FVec Ideal ⟨1, ![N]⟩ .f32)
    (Wv : FVec Ideal ⟨2, ![K, N]⟩ .f32) (bv : FVec Ideal ⟨1, ![N]⟩ .f32)
    (hs : (⟨2, ![M, K]⟩ : Shape).ShapeCasts ⟨2, ![M, K]⟩)
    (hbf : FTy.bf16.bits < FTy.f32.bits) (hc : (⟨1, ![N]⟩ : Shape).ShapeCasts ⟨2, ![1, N]⟩)
    (hb : (⟨2, ![1, N]⟩ : Shape).Broadcasts ⟨2, ![M, N]⟩) (p : Fin M) (q : Fin N) :
    addf (addf (matmul (DotDims.plain M K N) none (truncf .bf16 (shapeCast ⟨2, ![M, K]⟩ h hs) hbf) (truncf .bf16 Wm hbf)
            (constant (F := Ideal) ⟨2, ![M, N]⟩ .f32 0x00000000#32))
          (broadcastTo ⟨2, ![M, N]⟩ (shapeCast ⟨2, ![1, N]⟩ bm hc) hb))
        (mulf eps (exp (mulf (broadcast ⟨2, ![M, N]⟩ (Scalar.ofBits .f32 0x3F000000#32 : Ideal .f32))
          (addf (matmul (DotDims.plain M K N) none (truncf .bf16 (shapeCast ⟨2, ![M, K]⟩ h hs) hbf) (truncf .bf16 Wv hbf)
              (constant (F := Ideal) ⟨2, ![M, N]⟩ .f32 0x00000000#32))
            (broadcastTo ⟨2, ![M, N]⟩ (shapeCast ⟨2, ![1, N]⟩ bv hc) hb))))) (ix2 p q)
      = reparam (dense Wm bm (fun k => h (ix2 p k)) q) (eps (ix2 p q)) (dense Wv bv (fun k => h (ix2 p k)) q) :=
  congrArg₂ (fun a b => reparam a (eps (ix2 p q)) b) (khead_apply h Wm bm hs hbf hc hb p q)
    (khead_apply h Wv bv hs hbf hc hb p q)

/-- The host's sample from its mean and log-variance arrays, at an entry. -/
theorem hsample_apply {s : Shape} (mu lv eps : FVec Ideal s .f32)
    (hz : (⟨0, ![]⟩ : Shape).BroadcastsInDim s ![]) (i : s.Idx) :
    addf mu (mulf eps (Host.exp (F := Ideal)
        (mulf (broadcastInDim s ![] hz (constant (F := Ideal) ⟨0, ![]⟩ .f32 0x3F000000#32)) lv))) i
      = reparam (mu i) (eps i) (lv i) := by
  show mu i + eps i * Ideal.exp (broadcastInDim s ![] hz (constant (F := Ideal) ⟨0, ![]⟩ .f32 0x3F000000#32) i * lv i) = _
  rw [bcast_scalar_apply]
  rfl

end Cert.Layers

end
-- ==== Proof.RefRead.lean ====
/-
  The reference's perceptrons, heads and sample read at an entry: each is the row function of the same row of its
  operands (the two-layer perceptron of an edge's features for the encoder, the three-layer one for the decoder,
  a dense row for a head, the reparameterised sample pointwise).
-/
import proofs.«112424_j2731599200743_2_alg».proof.Proof.RefTerms
import proofs.«112424_j2731599200743_2_alg».proof.Proof.LibEdgeMlp

noncomputable section

namespace Cert.RefTerms

open Cert.ReferenceIdeal Cert.ReferenceIdeal.Gen Idealize.ShloMosaic Idealize.ShloMosaic.ValueIdx Cert.Layers

/-- The encoder's perceptron at edge `r`, output column `q`. -/
theorem encH_apply (xi xj : FVec Ideal S3200000x4 .f32) (W1 : FVec Ideal S8x32 .f32) (b1 : FVec Ideal S32 .f32)
    (W2 : FVec Ideal S32x32 .f32) (b2 : FVec Ideal S32 .f32) (r : Fin 3200000) (q : Fin 32) :
    encH xi xj W1 b1 W2 b2 (ix2 r q)
      = mlp2 (d := 4) (H := 32) (N := 32) W1 b1 W2 b2 (fun i => xi (ix2 r i)) (fun i => xj (ix2 r i)) q := by
  unfold encH
  exact hmlp2_apply (M := 3200000) (d := 4) (H := 32) (N := 32) xi xj W1 b1 W2 b2 _ _ _ _ _ _ _ r q

/-- The decoder's perceptron at edge `r`, output column `q`. -/
theorem decH_apply (zi zj : FVec Ideal S3200000x2 .f32) (W1 : FVec Ideal S4x32 .f32) (b1 : FVec Ideal S32 .f32)
    (W2 : FVec Ideal S32x32 .f32) (b2 : FVec Ideal S32 .f32) (W3 : FVec Ideal S32x4 .f32) (b3 : FVec Ideal S4 .f32)
    (r : Fin 3200000) (q : Fin 4) :
    decH zi zj W1 b1 W2 b2 W3 b3 (ix2 r q)
      = mlp3 (d := 2) (H := 32) (N := 32) (O := 4) W1 b1 W2 b2 W3 b3 (fun i => zi (ix2 r i)) (fun i => zj (ix2 r i)) q := by
  unfold decH
  exact hmlp3_apply (M := 3200000) (d := 2) (H := 32) (N := 32) (O := 4) zi zj W1 b1 W2 b2 W3 b3 _ _ _ _ _ _ _ _ _ r q

/-- A head at node `r`, output column `q`. -/
theorem headH_apply (h : FVec Ideal S100000x32 .f32) (W : FVec Ideal S32x2 .f32) (b : FVec Ideal S2 .f32)
    (r : Fin 100000) (q : Fin 2) :
    headH h W b (ix2 r q) = dense W b (fun k => h (ix2 r k)) q := by
  unfold headH
  exact hdense_apply (M := 100000) (K := 32) (N := 2) h W b _ _ r q

/-- The sample at an entry. -/
theorem sampleH_apply (mu lv eps : FVec Ideal S100000x2 .f32) (i : S100000x2.Idx) :
    sampleH mu lv eps i = reparam (mu i) (eps i) (lv i) := by
  unfold sampleH
  exact hsample_apply mu lv eps _ i

end Cert.RefTerms

end
-- ==== Proof.Region0.lean ====
/-
  The first region's result array: the encoder's edge perceptron of the two gathered node tables.

  The region walks the 3,200,000 edges in 400 blocks of 8,000 rows. Block t of each gathered table is rows
  8000·t … 8000·t + 7999 of the table; the weights and biases are read whole at every point. The body writes, at
  row p of block t, the two-layer perceptron of row p of its two input blocks, which is the perceptron of row
  8000·t + p of the tables: block t of one function of the whole arrays. The 400 blocks tile the result, so the
  result array ends holding that function, in the host's spelling of it.
-/
import proofs.«112424_j2731599200743_2_alg».proof.Proof.KernelIdealFrameP
import proofs.«112424_j2731599200743_2_alg».proof.Proof.RefRead
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layers

theorem hz2 : (![0, 0] : Fin 2 → Nat) = fun _ => 0 := funext fun a => by fin_cases a <;> rfl
theorem hz1 : (![0] : Fin 1 → Nat) = fun _ => 0 := funext fun a => by fin_cases a; rfl

/-- The body's value at row `p`, column `q` of a block: the two-layer perceptron of row `p` of the input blocks. -/
theorem pay0_apply (x0 x1 : FVec Ideal S8000x4 .f32) (x2 : FVec Ideal S8x32 .f32) (x3 : FVec Ideal S32 .f32)
    (x4 : FVec Ideal S32x32 .f32) (x5 : FVec Ideal S32 .f32) (p : Fin 8000) (q : Fin 32) :
    k0_pay1 (F := Ideal) x0 x1 x2 x3 x4 x5 (ix2 p q)
      = mlp2 (d := 4) (H := 32) (N := 32) x2 x3 x4 x5 (fun i => x0 (ix2 p i)) (fun i => x1 (ix2 p i)) q := by
  unfold k0_pay1
  exact kmlp2_apply (M := 8000) (d := 4) (H := 32) (N := 32) x0 x1 x2 x3 x4 x5 _ _ _ _ _ _ _ p q

/-- Row `p` of the body's value on blocks whose rows `p` are rows `r` of two tables is row `r` of the host's
    perceptron of the tables. -/
theorem enc_point (x0 x1 : FVec Ideal S8000x4 .f32) (x2 : FVec Ideal S8x32 .f32) (x3 : FVec Ideal S32 .f32)
    (x4 : FVec Ideal S32x32 .f32) (x5 : FVec Ideal S32 .f32)
    (xi xj : FVec Ideal S3200000x4 .f32) (W1 : FVec Ideal S8x32 .f32) (b1 : FVec Ideal S32 .f32)
    (W2 : FVec Ideal S32x32 .f32) (b2 : FVec Ideal S32 .f32) (p : Fin 8000) (q : Fin 32) (r : Fin 3200000)
    (h0 : ∀ i : Fin 4, x0 (ix2 p i) = xi (ix2 r i)) (h1 : ∀ i : Fin 4, x1 (ix2 p i) = xj (ix2 r i))
    (h2 : x2 = W1) (h3 : x3 = b1) (h4 : x4 = W2) (h5 : x5 = b2) :
    k0_pay1 (F := Ideal) x0 x1 x2 x3 x4 x5 (ix2 p q) = RefTerms.encH xi xj W1 b1 W2 b2 (ix2 r q) := by
  subst h2 h3 h4 h5
  rw [pay0_apply, RefTerms.encH_apply, funext h0, funext h1]

variable (V : (c : Dev nD) → (b : Ref sig .tc) → Buf (Elt Ideal) ((c : Thread nD τ).loc b))

/-- The printed index maps over the grid: the two tables and the result move one block of rows per point, the
    weights and biases stay at their one block. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row `p` of block `t` of the target rows' table is its row `8000 t + p`. -/
theorem iblk0_0_apply (c : Dev nD) (t : Fin cfg0.N) (p : Fin 8000) (i : Fin 4) (r : Fin 3200000)
    (hr : r.val = t.val * 8000 + p.val) :
    (iblk0 V c 0 t : S8000x4.Idx → EReal) (ix2 p i) = (V c main_v10 : S3200000x4.Idx → EReal) (ix2 r i) := by
  unfold iblk0
  rw [View.read_apply]
  show V c main_v10 (((cfg0.win 0).blk t).view.emb (ix2 p i)) = V c main_v10 (ix2 r i)
  refine congrArg _ (funext fun a => Fin.ext ?_)
  obtain ⟨e0, e1, -⟩ := idx0 t
  match a with
  | ⟨0, _⟩ => show win0_0.index t (0 : Fin 2) * 8000 + 1 * p.val = r.val; rw [e0, hr]; omega
  | ⟨1, _⟩ => show win0_0.index t (1 : Fin 2) * 4 + 1 * i.val = i.val; rw [e1]; omega

/-- The same for the source rows' table. -/
theorem iblk0_1_apply (c : Dev nD) (t : Fin cfg0.N) (p : Fin 8000) (i : Fin 4) (r : Fin 3200000)
    (hr : r.val = t.val * 8000 + p.val) :
    (iblk0 V c 1 t : S8000x4.Idx → EReal) (ix2 p i) = (V c main_v17 : S3200000x4.Idx → EReal) (ix2 r i) := by
  unfold iblk0
  rw [View.read_apply]
  show V c main_v17 (((cfg0.win 1).blk t).view.emb (ix2 p i)) = V c main_v17 (ix2 r i)
  refine congrArg _ (funext fun a => Fin.ext ?_)
  obtain ⟨-, -, e0, e1, -⟩ := idx0 t
  match a with
  | ⟨0, _⟩ => show win0_1.index t (0 : Fin 2) * 8000 + 1 * p.val = r.val; rw [e0, hr]; omega
  | ⟨1, _⟩ => show win0_1.index t (1 : Fin 2) * 4 + 1 * i.val = i.val; rw [e1]; omega

/-- The first layer's weights are read whole at every point. -/
theorem iblk0_2_eq (c : Dev nD) (t : Fin cfg0.N) : (iblk0 V c 2 t : S8x32.Idx → EReal) = V c main_arg3 := by
  funext y
  unfold iblk0
  rw [View.read_apply]
  show V c main_arg3 (((cfg0.win 2).blk t).view.emb y) = V c main_arg3 y
  refine congrArg _ (funext fun a => Fin.ext ?_)
  obtain ⟨-, -, -, -, e0, e1, -⟩ := idx0 t
  match a with
  | ⟨0, _⟩ => show win0_2.index t (0 : Fin 2) * 8 + 1 * (y 0).val = (y 0).val; rw [e0]; omega
  | ⟨1, _⟩ => show win0_2.index t (1 : Fin 2) * 32 + 1 * (y 1).val = (y 1).val; rw [e1]; omega

/-- The first layer's bias is read whole at every point. -/
theorem iblk0_3_eq (c : Dev nD) (t : Fin cfg0.N) : (iblk0 V c 3 t : S32.Idx → EReal) = V c main_arg4 := by
  funext y
  unfold iblk0
  rw [View.read_apply]
  show V c main_arg4 (((cfg0.win 3).blk t).view.emb y) = V c main_arg4 y
  refine congrArg _ (funext fun a => Fin.ext ?_)
  obtain ⟨-, -, -, -, -, -, e0, -⟩ := idx0 t
  match a with
  | ⟨0, _⟩ => show win0_3.index t (0 : Fin 1) * 32 + 1 * (y 0).val = (y 0).val; rw [e0]; omega

/-- The second layer's weights are read whole at every point. -/
theorem iblk0_4_eq (c : Dev nD) (t : Fin cfg0.N) : (iblk0 V c 4 t : S32x32.Idx → EReal) = V c main_arg5 := by
  funext y
  unfold iblk0
  rw [View.read_apply]
  show V c main_arg5 (((cfg0.win 4).blk t).view.emb y) = V c main_arg5 y
  refine congrArg _ (funext fun a => Fin.ext ?_)
  obtain ⟨-, -, -, -, -, -, -, e0, e1, -⟩ := idx0 t
  match a with
  | ⟨0, _⟩ => show win0_4.index t (0 : Fin 2) * 32 + 1 * (y 0).val = (y 0).val; rw [e0]; omega
  | ⟨1, _⟩ => show win0_4.index t (1 : Fin 2) * 32 + 1 * (y 1).val = (y 1).val; rw [e1]; omega

/-- The second layer's bias is read whole at every point. -/
theorem iblk0_5_eq (c : Dev nD) (t : Fin cfg0.N) : (iblk0 V c 5 t : S32.Idx → EReal) = V c main_arg6 := by
  funext y
  unfold iblk0
  rw [View.read_apply]
  show V c main_arg6 (((cfg0.win 5).blk t).view.emb y) = V c main_arg6 y
  refine congrArg _ (funext fun a => Fin.ext ?_)
  obtain ⟨-, -, -, -, -, -, -, -, -, e0, -⟩ := idx0 t
  match a with
  | ⟨0, _⟩ => show win0_5.index t (0 : Fin 1) * 32 + 1 * (y 0).val = (y 0).val; rw [e0]; omega

/-- What point `t` writes back is block `t` of the host's perceptron of the two tables as the region finds them. -/
theorem flushed0 (c : Dev nD) (t : Fin cfg0.N) :
    (dat0 V c).flushed 6 t = ((cfg0.win 6).blk t).view.read (Elt Ideal)
      (RefTerms.encH (V c main_v10) (V c main_v17) (V c main_arg3) (V c main_arg4) (V c main_arg5) (V c main_arg6)) := by
  show (cfg0.win 6).cut (grid0.coords t) ((dat0 V c).after 6 t) = _
  rw [after0_6]
  unfold out0_6
  rw [View.canon_unit_zero hz2]
  simp only [View.ld_unit_zero (S := S8000x4) hz2, View.ld_unit_zero (S := S8x32) hz2,
    View.ld_unit_zero (S := S32) hz1, View.ld_unit_zero (S := S32x32) hz2]
  refine funext fun (j : S8000x32.Idx) => ?_
  obtain ⟨p, q, rfl⟩ : ∃ (p : Fin 8000) (q : Fin 32), j = ix2 p q := ⟨j 0, j 1, eq_ix2 j⟩
  have hN : cfg0.N = 400 := N_0
  have ht : t.val < 400 := hN ▸ t.isLt
  obtain ⟨-, -, -, -, -, -, -, -, -, -, e0, e1⟩ := idx0 t
  have hp : p.val < 8000 := p.isLt
  have hr : t.val * 8000 + p.val < 3200000 := by omega
  have hemb : ((cfg0.win 6).blk t).view.emb (ix2 p q) = (ix2 (⟨t.val * 8000 + p.val, hr⟩ : Fin 3200000) q : S3200000x32.Idx) := by
    funext a; apply Fin.ext
    match a with
    | ⟨0, _⟩ => show win0_6.index t (0 : Fin 2) * 8000 + 1 * p.val = t.val * 8000 + p.val; rw [e0]; omega
    | ⟨1, _⟩ => show win0_6.index t (1 : Fin 2) * 32 + 1 * q.val = q.val; rw [e1]; omega
  rw [View.read_apply, hemb]
  exact enc_point (iblk0 V c 0 t) (iblk0 V c 1 t) (iblk0 V c 2 t) (iblk0 V c 3 t) (iblk0 V c 4 t) (iblk0 V c 5 t)
    (V c main_v10) (V c main_v17) (V c main_arg3) (V c main_arg4) (V c main_arg5) (V c main_arg6) p q ⟨t.val * 8000 + p.val, hr⟩
    (fun i => iblk0_0_apply V c t p i _ rfl) (fun i => iblk0_1_apply V c t p i _ rfl)
    (iblk0_2_eq V c t) (iblk0_3_eq V c t) (iblk0_4_eq V c t) (iblk0_5_eq V c t)

/-- An index of the result array is in point `t`'s block iff each coordinate is in the block's range on its axis. -/
theorem mem_blk0 (t : Fin cfg0.N) (i : S3200000x32.Idx) :
    i ∈ ((cfg0.win 6).blk t).view.set ↔ ∀ a : Fin 2, win0_6.index t a * S8000x32.size a ≤ (i a).val ∧ (i a).val < win0_6.index t a * S8000x32.size a + S8000x32.size a := by
  show i ∈ ((View.whole main_v18).slice (win0_6.rect t)).set ↔ _
  rw [View.set_slice_whole, Rect.mem_set_unit]
  exact Iff.rfl

/-- The result array after the region: the host's perceptron of the two tables as the region finds them. -/
theorem final0 (c : Dev nD) : (dat0 V c).arrAt 6 cfg0.N
    = RefTerms.encH (V c main_v10) (V c main_v17) (V c main_arg3) (V c main_arg4) (V c main_arg5) (V c main_arg6) :=
  (dat0 V c).arrAt_eq_of_cover 6 _ (fun t _ => flushed0 V c t) fun i => by
    have hi0 : (i 0).val < 3200000 := (i 0).isLt
    have hi1 : (i 1).val < 32 := (i 1).isLt
    have hN : cfg0.N = 400 := N_0
    refine ⟨⟨(i 0).val / 8000, by rw [hN]; omega⟩, flush0_6 _, ?_⟩
    rw [mem_blk0]
    obtain ⟨-, -, -, -, -, -, -, -, -, -, e0, e1⟩ := idx0 ⟨(i 0).val / 8000, by rw [hN]; omega⟩
    intro a
    match a with
    | ⟨0, _⟩ =>
      show win0_6.index ⟨(i 0).val / 8000, _⟩ (0 : Fin 2) * 8000 ≤ (i 0).val ∧ (i 0).val < win0_6.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win0_6.index ⟨(i 0).val / 8000, _⟩ (1 : Fin 2) * 32 ≤ (i 1).val ∧ (i 1).val < win0_6.index ⟨(i 0).val / 8000, _⟩ (1 : Fin 2) * 32 + 32
      rw [e1]; omega

end Cert.KernelIdeal.Hand

end
-- ==== Proof.Region1.lean ====
/-
  The second region's three result arrays: the two linear heads of the node features and the reparameterised sample.

  The region walks the 100,000 nodes in 50 blocks of 2,000 rows. Block t of the node features and of the noise is
  rows 2000·t … 2000·t + 1999; the heads' weights and biases are read whole at every point. At row p of block t the
  body writes mu = h · W_mu + b_mu, log_var = h · W_var + b_var and z = mu + eps · exp (½ log_var) of row p of its
  blocks, that is of row 2000·t + p of the arrays: block t of one function of the whole arrays each. The 50 blocks
  tile each result, so each ends holding that function, in the host's spelling of it.
-/
import proofs.«112424_j2731599200743_2_alg».proof.Proof.KernelIdealFrameP
import proofs.«112424_j2731599200743_2_alg».proof.Proof.RefRead
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layers

theorem zero2_1 : (![0, 0] : Fin 2 → Nat) = fun _ => 0 := funext fun a => by fin_cases a <;> rfl
theorem zero1_1 : (![0] : Fin 1 → Nat) = fun _ => 0 := funext fun a => by fin_cases a; rfl

/-- The mean head's value at row `p`, column `q` of a block: a dense row of row `p` of the features' block. -/
theorem pay1_mu_apply (x0 : FVec Ideal S2000x32 .f32) (W : FVec Ideal S32x2 .f32) (b : FVec Ideal S2 .f32)
    (p : Fin 2000) (q : Fin 2) :
    k1_pay2 (F := Ideal) x0 W b (ix2 p q) = dense W b (fun k => x0 (ix2 p k)) q := by
  unfold k1_pay2 k1_pay1
  exact khead_apply (M := 2000) (K := 32) (N := 2) x0 W b _ _ _ _ p q

/-- The log-variance head's value, likewise. -/
theorem pay1_lv_apply (x0 : FVec Ideal S2000x32 .f32) (W : FVec Ideal S32x2 .f32) (b : FVec Ideal S2 .f32)
    (p : Fin 2000) (q : Fin 2) :
    k1_pay3 (F := Ideal) x0 W b (ix2 p q) = dense W b (fun k => x0 (ix2 p k)) q := by
  unfold k1_pay3 k1_pay1
  exact khead_apply (M := 2000) (K := 32) (N := 2) x0 W b _ _ _ _ p q

/-- The sample's value at an entry of a block. -/
theorem pay1_z_apply (x0 : FVec Ideal S2000x32 .f32) (x1 : FVec Ideal S2000x2 .f32) (Wm : FVec Ideal S32x2 .f32)
    (bm : FVec Ideal S2 .f32) (Wv : FVec Ideal S32x2 .f32) (bv : FVec Ideal S2 .f32) (p : Fin 2000) (q : Fin 2) :
    k1_pay4 (F := Ideal) x0 x1 Wm bm Wv bv (ix2 p q)
      = reparam (dense Wm bm (fun k => x0 (ix2 p k)) q) (x1 (ix2 p q)) (dense Wv bv (fun k => x0 (ix2 p k)) q) := by
  unfold k1_pay4 k1_pay2 k1_pay3 k1_pay1
  exact ksample_apply (M := 2000) (K := 32) (N := 2) x0 x1 Wm bm Wv bv _ _ _ _ p q

/-- Row `p` of the mean head on a block whose row `p` is row `r` of the features is row `r` of the host's head. -/
theorem mu_point (x0 : FVec Ideal S2000x32 .f32) (x2 : FVec Ideal S32x2 .f32) (x3 : FVec Ideal S2 .f32)
    (h : FVec Ideal S100000x32 .f32) (W : FVec Ideal S32x2 .f32) (b : FVec Ideal S2 .f32)
    (p : Fin 2000) (q : Fin 2) (r : Fin 100000)
    (h0 : ∀ k : Fin 32, x0 (ix2 p k) = h (ix2 r k)) (h2 : x2 = W) (h3 : x3 = b) :
    k1_pay2 (F := Ideal) x0 x2 x3 (ix2 p q) = RefTerms.headH h W b (ix2 r q) := by
  subst h2 h3
  rw [pay1_mu_apply, RefTerms.headH_apply, funext h0]

/-- The same for the log-variance head. -/
theorem lv_point (x0 : FVec Ideal S2000x32 .f32) (x2 : FVec Ideal S32x2 .f32) (x3 : FVec Ideal S2 .f32)
    (h : FVec Ideal S100000x32 .f32) (W : FVec Ideal S32x2 .f32) (b : FVec Ideal S2 .f32)
    (p : Fin 2000) (q : Fin 2) (r : Fin 100000)
    (h0 : ∀ k : Fin 32, x0 (ix2 p k) = h (ix2 r k)) (h2 : x2 = W) (h3 : x3 = b) :
    k1_pay3 (F := Ideal) x0 x2 x3 (ix2 p q) = RefTerms.headH h W b (ix2 r q) := by
  subst h2 h3
  rw [pay1_lv_apply, RefTerms.headH_apply, funext h0]

/-- The same for the sample: the host's sample of the host's two heads and the noise. -/
theorem z_point (x0 : FVec Ideal S2000x32 .f32) (x1 : FVec Ideal S2000x2 .f32) (x2 : FVec Ideal S32x2 .f32)
    (x3 : FVec Ideal S2 .f32) (x4 : FVec Ideal S32x2 .f32) (x5 : FVec Ideal S2 .f32)
    (h : FVec Ideal S100000x32 .f32) (eps : FVec Ideal S100000x2 .f32) (Wm : FVec Ideal S32x2 .f32) (bm : FVec Ideal S2 .f32)
    (Wv : FVec Ideal S32x2 .f32) (bv : FVec Ideal S2 .f32) (p : Fin 2000) (q : Fin 2) (r : Fin 100000)
    (h0 : ∀ k : Fin 32, x0 (ix2 p k) = h (ix2 r k)) (h1 : ∀ i : Fin 2, x1 (ix2 p i) = eps (ix2 r i))
    (h2 : x2 = Wm) (h3 : x3 = bm) (h4 : x4 = Wv) (h5 : x5 = bv) :
    k1_pay4 (F := Ideal) x0 x1 x2 x3 x4 x5 (ix2 p q)
      = RefTerms.sampleH (RefTerms.headH h Wm bm) (RefTerms.headH h Wv bv) eps (ix2 r q) := by
  subst h2 h3 h4 h5
  rw [pay1_z_apply, RefTerms.sampleH_apply, RefTerms.headH_apply, RefTerms.headH_apply, funext h0, h1 q]

variable (V : (c : Dev nD) → (b : Ref sig .tc) → Buf (Elt Ideal) ((c : Thread nD τ).loc b))

/-- The printed index maps over the grid: the features, the noise and the three results move one block of rows
    per point, the weights and biases stay at their one block. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

/-- Row `p` of block `t` of the node features is their row `2000 t + p`. -/
theorem iblk1_0_apply (c : Dev nD) (t : Fin cfg1.N) (p : Fin 2000) (i : Fin 32) (r : Fin 100000)
    (hr : r.val = t.val * 2000 + p.val) :
    (iblk1 V c 0 t : S2000x32.Idx → EReal) (ix2 p i) = (V c main_v29 : S100000x32.Idx → EReal) (ix2 r i) := by
  unfold iblk1
  rw [View.read_apply]
  show V c main_v29 (((cfg1.win 0).blk t).view.emb (ix2 p i)) = V c main_v29 (ix2 r i)
  refine congrArg _ (funext fun a => Fin.ext ?_)
  obtain ⟨e0, e1, -⟩ := idx1 t
  match a with
  | ⟨0, _⟩ => show win1_0.index t (0 : Fin 2) * 2000 + 1 * p.val = r.val; rw [e0, hr]; omega
  | ⟨1, _⟩ => show win1_0.index t (1 : Fin 2) * 32 + 1 * i.val = i.val; rw [e1]; omega

/-- Row `p` of block `t` of the noise is its row `2000 t + p`. -/
theorem iblk1_1_apply (c : Dev nD) (t : Fin cfg1.N) (p : Fin 2000) (i : Fin 2) (r : Fin 100000)
    (hr : r.val = t.val * 2000 + p.val) :
    (iblk1 V c 1 t : S2000x2.Idx → EReal) (ix2 p i) = (V c main_arg2 : S100000x2.Idx → EReal) (ix2 r i) := by
  unfold iblk1
  rw [View.read_apply]
  show V c main_arg2 (((cfg1.win 1).blk t).view.emb (ix2 p i)) = V c main_arg2 (ix2 r i)
  refine congrArg _ (funext fun a => Fin.ext ?_)
  obtain ⟨-, -, e0, e1, -⟩ := idx1 t
  match a with
  | ⟨0, _⟩ => show win1_1.index t (0 : Fin 2) * 2000 + 1 * p.val = r.val; rw [e0, hr]; omega
  | ⟨1, _⟩ => show win1_1.index t (1 : Fin 2) * 2 + 1 * i.val = i.val; rw [e1]; omega

/-- The mean head's weights are read whole at every point. -/
theorem iblk1_2_eq (c : Dev nD) (t : Fin cfg1.N) : (iblk1 V c 2 t : S32x2.Idx → EReal) = V c main_arg7 := by
  funext y
  unfold iblk1
  rw [View.read_apply]
  show V c main_arg7 (((cfg1.win 2).blk t).view.emb y) = V c main_arg7 y
  refine congrArg _ (funext fun a => Fin.ext ?_)
  obtain ⟨-, -, -, -, e0, e1, -⟩ := idx1 t
  match a with
  | ⟨0, _⟩ => show win1_2.index t (0 : Fin 2) * 32 + 1 * (y 0).val = (y 0).val; rw [e0]; omega
  | ⟨1, _⟩ => show win1_2.index t (1 : Fin 2) * 2 + 1 * (y 1).val = (y 1).val; rw [e1]; omega

/-- The mean head's bias is read whole at every point. -/
theorem iblk1_3_eq (c : Dev nD) (t : Fin cfg1.N) : (iblk1 V c 3 t : S2.Idx → EReal) = V c main_arg8 := by
  funext y
  unfold iblk1
  rw [View.read_apply]
  show V c main_arg8 (((cfg1.win 3).blk t).view.emb y) = V c main_arg8 y
  refine congrArg _ (funext fun a => Fin.ext ?_)
  obtain ⟨-, -, -, -, -, -, e0, -⟩ := idx1 t
  match a with
  | ⟨0, _⟩ => show win1_3.index t (0 : Fin 1) * 2 + 1 * (y 0).val = (y 0).val; rw [e0]; omega

/-- The log-variance head's weights are read whole at every point. -/
theorem iblk1_4_eq (c : Dev nD) (t : Fin cfg1.N) : (iblk1 V c 4 t : S32x2.Idx → EReal) = V c main_arg9 := by
  funext y
  unfold iblk1
  rw [View.read_apply]
  show V c main_arg9 (((cfg1.win 4).blk t).view.emb y) = V c main_arg9 y
  refine congrArg _ (funext fun a => Fin.ext ?_)
  obtain ⟨-, -, -, -, -, -, -, e0, e1, -⟩ := idx1 t
  match a with
  | ⟨0, _⟩ => show win1_4.index t (0 : Fin 2) * 32 + 1 * (y 0).val = (y 0).val; rw [e0]; omega
  | ⟨1, _⟩ => show win1_4.index t (1 : Fin 2) * 2 + 1 * (y 1).val = (y 1).val; rw [e1]; omega

/-- The log-variance head's bias is read whole at every point. -/
theorem iblk1_5_eq (c : Dev nD) (t : Fin cfg1.N) : (iblk1 V c 5 t : S2.Idx → EReal) = V c main_arg10 := by
  funext y
  unfold iblk1
  rw [View.read_apply]
  show V c main_arg10 (((cfg1.win 5).blk t).view.emb y) = V c main_arg10 y
  refine congrArg _ (funext fun a => Fin.ext ?_)
  obtain ⟨-, -, -, -, -, -, -, -, -, e0, -⟩ := idx1 t
  match a with
  | ⟨0, _⟩ => show win1_5.index t (0 : Fin 1) * 2 + 1 * (y 0).val = (y 0).val; rw [e0]; omega

/-- What point `t` writes back to the mean's array is block `t` of the host's head of the features as the region finds them. -/
theorem flushed1_6 (c : Dev nD) (t : Fin cfg1.N) :
    (dat1 V c).flushed 6 t = ((cfg1.win 6).blk t).view.read (Elt Ideal)
      (RefTerms.headH (V c main_v29) (V c main_arg7) (V c main_arg8)) := by
  show (cfg1.win 6).cut (grid1.coords t) ((dat1 V c).after 6 t) = _
  rw [after1_6]
  unfold out1_6
  rw [View.canon_unit_zero zero2_1]
  simp only [View.ld_unit_zero (S := S2000x32) zero2_1, View.ld_unit_zero (S := S32x2) zero2_1, View.ld_unit_zero (S := S2) zero1_1]
  refine funext fun (j : S2000x2.Idx) => ?_
  obtain ⟨p, q, rfl⟩ : ∃ (p : Fin 2000) (q : Fin 2), j = ix2 p q := ⟨j 0, j 1, eq_ix2 j⟩
  have hN : cfg1.N = 50 := N_1
  have ht : t.val < 50 := hN ▸ t.isLt
  obtain ⟨-, -, -, -, -, -, -, -, -, -, e0, e1, -⟩ := idx1 t
  have hp : p.val < 2000 := p.isLt
  have hr : t.val * 2000 + p.val < 100000 := by omega
  have hemb : ((cfg1.win 6).blk t).view.emb (ix2 p q) = (ix2 (⟨t.val * 2000 + p.val, hr⟩ : Fin 100000) q : S100000x2.Idx) := by
    funext a; apply Fin.ext
    match a with
    | ⟨0, _⟩ => show win1_6.index t (0 : Fin 2) * 2000 + 1 * p.val = t.val * 2000 + p.val; rw [e0]; omega
    | ⟨1, _⟩ => show win1_6.index t (1 : Fin 2) * 2 + 1 * q.val = q.val; rw [e1]; omega
  rw [View.read_apply, hemb]
  exact mu_point (iblk1 V c 0 t) (iblk1 V c 2 t) (iblk1 V c 3 t) (V c main_v29) (V c main_arg7) (V c main_arg8) p q ⟨t.val * 2000 + p.val, hr⟩
    (fun k => iblk1_0_apply V c t p k _ rfl) (iblk1_2_eq V c t) (iblk1_3_eq V c t)

/-- The same for the log-variance's array. -/
theorem flushed1_7 (c : Dev nD) (t : Fin cfg1.N) :
    (dat1 V c).flushed 7 t = ((cfg1.win 7).blk t).view.read (Elt Ideal)
      (RefTerms.headH (V c main_v29) (V c main_arg9) (V c main_arg10)) := by
  show (cfg1.win 7).cut (grid1.coords t) ((dat1 V c).after 7 t) = _
  rw [after1_7]
  unfold out1_7
  rw [View.canon_unit_zero zero2_1]
  simp only [View.ld_unit_zero (S := S2000x32) zero2_1, View.ld_unit_zero (S := S32x2) zero2_1, View.ld_unit_zero (S := S2) zero1_1]
  refine funext fun (j : S2000x2.Idx) => ?_
  obtain ⟨p, q, rfl⟩ : ∃ (p : Fin 2000) (q : Fin 2), j = ix2 p q := ⟨j 0, j 1, eq_ix2 j⟩
  have hN : cfg1.N = 50 := N_1
  have ht : t.val < 50 := hN ▸ t.isLt
  obtain ⟨-, -, -, -, -, -, -, -, -, -, -, -, e0, e1, -⟩ := idx1 t
  have hp : p.val < 2000 := p.isLt
  have hr : t.val * 2000 + p.val < 100000 := by omega
  have hemb : ((cfg1.win 7).blk t).view.emb (ix2 p q) = (ix2 (⟨t.val * 2000 + p.val, hr⟩ : Fin 100000) q : S100000x2.Idx) := by
    funext a; apply Fin.ext
    match a with
    | ⟨0, _⟩ => show win1_7.index t (0 : Fin 2) * 2000 + 1 * p.val = t.val * 2000 + p.val; rw [e0]; omega
    | ⟨1, _⟩ => show win1_7.index t (1 : Fin 2) * 2 + 1 * q.val = q.val; rw [e1]; omega
  rw [View.read_apply, hemb]
  exact lv_point (iblk1 V c 0 t) (iblk1 V c 4 t) (iblk1 V c 5 t) (V c main_v29) (V c main_arg9) (V c main_arg10) p q ⟨t.val * 2000 + p.val, hr⟩
    (fun k => iblk1_0_apply V c t p k _ rfl) (iblk1_4_eq V c t) (iblk1_5_eq V c t)

/-- The same for the sample's array: the host's sample of its two heads and the noise. -/
theorem flushed1_8 (c : Dev nD) (t : Fin cfg1.N) :
    (dat1 V c).flushed 8 t = ((cfg1.win 8).blk t).view.read (Elt Ideal)
      (RefTerms.sampleH (RefTerms.headH (V c main_v29) (V c main_arg7) (V c main_arg8)) (RefTerms.headH (V c main_v29) (V c main_arg9) (V c main_arg10)) (V c main_arg2)) := by
  show (cfg1.win 8).cut (grid1.coords t) ((dat1 V c).after 8 t) = _
  rw [after1_8]
  unfold out1_8
  rw [View.canon_unit_zero zero2_1]
  simp only [View.ld_unit_zero (S := S2000x32) zero2_1, View.ld_unit_zero (S := S2000x2) zero2_1, View.ld_unit_zero (S := S32x2) zero2_1, View.ld_unit_zero (S := S2) zero1_1]
  refine funext fun (j : S2000x2.Idx) => ?_
  obtain ⟨p, q, rfl⟩ : ∃ (p : Fin 2000) (q : Fin 2), j = ix2 p q := ⟨j 0, j 1, eq_ix2 j⟩
  have hN : cfg1.N = 50 := N_1
  have ht : t.val < 50 := hN ▸ t.isLt
  obtain ⟨-, -, -, -, -, -, -, -, -, -, -, -, -, -, e0, e1⟩ := idx1 t
  have hp : p.val < 2000 := p.isLt
  have hr : t.val * 2000 + p.val < 100000 := by omega
  have hemb : ((cfg1.win 8).blk t).view.emb (ix2 p q) = (ix2 (⟨t.val * 2000 + p.val, hr⟩ : Fin 100000) q : S100000x2.Idx) := by
    funext a; apply Fin.ext
    match a with
    | ⟨0, _⟩ => show win1_8.index t (0 : Fin 2) * 2000 + 1 * p.val = t.val * 2000 + p.val; rw [e0]; omega
    | ⟨1, _⟩ => show win1_8.index t (1 : Fin 2) * 2 + 1 * q.val = q.val; rw [e1]; omega
  rw [View.read_apply, hemb]
  exact z_point (iblk1 V c 0 t) (iblk1 V c 1 t) (iblk1 V c 2 t) (iblk1 V c 3 t) (iblk1 V c 4 t) (iblk1 V c 5 t)
    (V c main_v29) (V c main_arg2) (V c main_arg7) (V c main_arg8) (V c main_arg9) (V c main_arg10) p q ⟨t.val * 2000 + p.val, hr⟩
    (fun k => iblk1_0_apply V c t p k _ rfl) (fun i => iblk1_1_apply V c t p i _ rfl)
    (iblk1_2_eq V c t) (iblk1_3_eq V c t) (iblk1_4_eq V c t) (iblk1_5_eq V c t)

/-- An index of the array is in point `t`'s block of window 6 iff each coordinate is in the block's range on its axis. -/
theorem mem_blk1_6 (t : Fin cfg1.N) (i : S100000x2.Idx) :
    i ∈ ((cfg1.win 6).blk t).view.set ↔ ∀ a : Fin 2, win1_6.index t a * S2000x2.size a ≤ (i a).val ∧ (i a).val < win1_6.index t a * S2000x2.size a + S2000x2.size a := by
  show i ∈ ((View.whole main_v30_0).slice (win1_6.rect t)).set ↔ _
  rw [View.set_slice_whole, Rect.mem_set_unit]
  exact Iff.rfl

/-- An index of the array is in point `t`'s block of window 7 iff each coordinate is in the block's range on its axis. -/
theorem mem_blk1_7 (t : Fin cfg1.N) (i : S100000x2.Idx) :
    i ∈ ((cfg1.win 7).blk t).view.set ↔ ∀ a : Fin 2, win1_7.index t a * S2000x2.size a ≤ (i a).val ∧ (i a).val < win1_7.index t a * S2000x2.size a + S2000x2.size a := by
  show i ∈ ((View.whole main_v30_1).slice (win1_7.rect t)).set ↔ _
  rw [View.set_slice_whole, Rect.mem_set_unit]
  exact Iff.rfl

/-- An index of the array is in point `t`'s block of window 8 iff each coordinate is in the block's range on its axis. -/
theorem mem_blk1_8 (t : Fin cfg1.N) (i : S100000x2.Idx) :
    i ∈ ((cfg1.win 8).blk t).view.set ↔ ∀ a : Fin 2, win1_8.index t a * S2000x2.size a ≤ (i a).val ∧ (i a).val < win1_8.index t a * S2000x2.size a + S2000x2.size a := by
  show i ∈ ((View.whole main_v30_2).slice (win1_8.rect t)).set ↔ _
  rw [View.set_slice_whole, Rect.mem_set_unit]
  exact Iff.rfl

/-- The mean's array after the region. -/
theorem final1_mu (c : Dev nD) : (dat1 V c).arrAt 6 cfg1.N
    = RefTerms.headH (V c main_v29) (V c main_arg7) (V c main_arg8) :=
  (dat1 V c).arrAt_eq_of_cover 6 _ (fun t _ => flushed1_6 V c t) fun i => by
    have hi0 : (i 0).val < 100000 := (i 0).isLt
    have hi1 : (i 1).val < 2 := (i 1).isLt
    have hN : cfg1.N = 50 := N_1
    refine ⟨⟨(i 0).val / 2000, by rw [hN]; omega⟩, flush1_6 _, ?_⟩
    rw [mem_blk1_6]
    obtain ⟨-, -, -, -, -, -, -, -, -, -, e0, e1, -⟩ := idx1 ⟨(i 0).val / 2000, by rw [hN]; omega⟩
    intro a
    match a with
    | ⟨0, _⟩ =>
      show win1_6.index ⟨(i 0).val / 2000, _⟩ (0 : Fin 2) * 2000 ≤ (i 0).val ∧ (i 0).val < win1_6.index ⟨(i 0).val / 2000, _⟩ (0 : Fin 2) * 2000 + 2000
      rw [e0]; show (i 0).val / 2000 * 2000 ≤ (i 0).val ∧ (i 0).val < (i 0).val / 2000 * 2000 + 2000; omega
    | ⟨1, _⟩ =>
      show win1_6.index ⟨(i 0).val / 2000, _⟩ (1 : Fin 2) * 2 ≤ (i 1).val ∧ (i 1).val < win1_6.index ⟨(i 0).val / 2000, _⟩ (1 : Fin 2) * 2 + 2
      rw [e1]; omega

/-- The log-variance's array after the region. -/
theorem final1_lv (c : Dev nD) : (dat1 V c).arrAt 7 cfg1.N
    = RefTerms.headH (V c main_v29) (V c main_arg9) (V c main_arg10) :=
  (dat1 V c).arrAt_eq_of_cover 7 _ (fun t _ => flushed1_7 V c t) fun i => by
    have hi0 : (i 0).val < 100000 := (i 0).isLt
    have hi1 : (i 1).val < 2 := (i 1).isLt
    have hN : cfg1.N = 50 := N_1
    refine ⟨⟨(i 0).val / 2000, by rw [hN]; omega⟩, flush1_7 _, ?_⟩
    rw [mem_blk1_7]
    obtain ⟨-, -, -, -, -, -, -, -, -, -, -, -, e0, e1, -⟩ := idx1 ⟨(i 0).val / 2000, by rw [hN]; omega⟩
    intro a
    match a with
    | ⟨0, _⟩ =>
      show win1_7.index ⟨(i 0).val / 2000, _⟩ (0 : Fin 2) * 2000 ≤ (i 0).val ∧ (i 0).val < win1_7.index ⟨(i 0).val / 2000, _⟩ (0 : Fin 2) * 2000 + 2000
      rw [e0]; show (i 0).val / 2000 * 2000 ≤ (i 0).val ∧ (i 0).val < (i 0).val / 2000 * 2000 + 2000; omega
    | ⟨1, _⟩ =>
      show win1_7.index ⟨(i 0).val / 2000, _⟩ (1 : Fin 2) * 2 ≤ (i 1).val ∧ (i 1).val < win1_7.index ⟨(i 0).val / 2000, _⟩ (1 : Fin 2) * 2 + 2
      rw [e1]; omega

/-- The sample's array after the region. -/
theorem final1_z (c : Dev nD) : (dat1 V c).arrAt 8 cfg1.N
    = RefTerms.sampleH (RefTerms.headH (V c main_v29) (V c main_arg7) (V c main_arg8)) (RefTerms.headH (V c main_v29) (V c main_arg9) (V c main_arg10)) (V c main_arg2) :=
  (dat1 V c).arrAt_eq_of_cover 8 _ (fun t _ => flushed1_8 V c t) fun i => by
    have hi0 : (i 0).val < 100000 := (i 0).isLt
    have hi1 : (i 1).val < 2 := (i 1).isLt
    have hN : cfg1.N = 50 := N_1
    refine ⟨⟨(i 0).val / 2000, by rw [hN]; omega⟩, flush1_8 _, ?_⟩
    rw [mem_blk1_8]
    obtain ⟨-, -, -, -, -, -, -, -, -, -, -, -, -, -, e0, e1⟩ := idx1 ⟨(i 0).val / 2000, by rw [hN]; omega⟩
    intro a
    match a with
    | ⟨0, _⟩ =>
      show win1_8.index ⟨(i 0).val / 2000, _⟩ (0 : Fin 2) * 2000 ≤ (i 0).val ∧ (i 0).val < win1_8.index ⟨(i 0).val / 2000, _⟩ (0 : Fin 2) * 2000 + 2000
      rw [e0]; show (i 0).val / 2000 * 2000 ≤ (i 0).val ∧ (i 0).val < (i 0).val / 2000 * 2000 + 2000; omega
    | ⟨1, _⟩ =>
      show win1_8.index ⟨(i 0).val / 2000, _⟩ (1 : Fin 2) * 2 ≤ (i 1).val ∧ (i 1).val < win1_8.index ⟨(i 0).val / 2000, _⟩ (1 : Fin 2) * 2 + 2
      rw [e1]; omega

end Cert.KernelIdeal.Hand

end
-- ==== Proof.Region2.lean ====
/-
  The third region's result array: the decoder's edge perceptron of the two gathered sample tables.

  As in the first region the 3,200,000 edges are walked in 400 blocks of 8,000 rows, the six weights and biases read
  whole at every point. The body writes, at row p of block t, the three-layer perceptron (two rectified layers and a
  linear one) of row p of its two input blocks, which is the perceptron of row 8000·t + p of the tables: block t of
  one function of the whole arrays. The 400 blocks tile the result, so it ends holding that function, in the host's
  spelling of it.
-/
import proofs.«112424_j2731599200743_2_alg».proof.Proof.KernelIdealFrameP
import proofs.«112424_j2731599200743_2_alg».proof.Proof.RefRead
import Idealize.ShloMosaic.Lib.Pipeline.Value

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.ValueIdx
open Idealize.ShloMosaic.Pipeline (Dat)
open Cert.Layers

theorem zero2_2 : (![0, 0] : Fin 2 → Nat) = fun _ => 0 := funext fun a => by fin_cases a <;> rfl
theorem zero1_2 : (![0] : Fin 1 → Nat) = fun _ => 0 := funext fun a => by fin_cases a; rfl

/-- The body's value at row `p`, column `q` of a block: the three-layer perceptron of row `p` of the input blocks. -/
theorem pay2_apply (x0 x1 : FVec Ideal S8000x2 .f32) (x2 : FVec Ideal S4x32 .f32) (x3 : FVec Ideal S32 .f32)
    (x4 : FVec Ideal S32x32 .f32) (x5 : FVec Ideal S32 .f32) (x6 : FVec Ideal S32x4 .f32) (x7 : FVec Ideal S4 .f32)
    (p : Fin 8000) (q : Fin 4) :
    k2_pay1 (F := Ideal) x0 x1 x2 x3 x4 x5 x6 x7 (ix2 p q)
      = mlp3 (d := 2) (H := 32) (N := 32) (O := 4) x2 x3 x4 x5 x6 x7 (fun i => x0 (ix2 p i)) (fun i => x1 (ix2 p i)) q := by
  unfold k2_pay1
  exact kmlp3_apply (M := 8000) (d := 2) (H := 32) (N := 32) (O := 4) x0 x1 x2 x3 x4 x5 x6 x7 _ _ _ _ _ _ _ _ _ p q

/-- Row `p` of the body's value on blocks whose rows `p` are rows `r` of two tables is row `r` of the host's
    perceptron of the tables. -/
theorem dec_point (x0 x1 : FVec Ideal S8000x2 .f32) (x2 : FVec Ideal S4x32 .f32) (x3 : FVec Ideal S32 .f32)
    (x4 : FVec Ideal S32x32 .f32) (x5 : FVec Ideal S32 .f32) (x6 : FVec Ideal S32x4 .f32) (x7 : FVec Ideal S4 .f32)
    (zi zj : FVec Ideal S3200000x2 .f32) (W1 : FVec Ideal S4x32 .f32) (b1 : FVec Ideal S32 .f32)
    (W2 : FVec Ideal S32x32 .f32) (b2 : FVec Ideal S32 .f32) (W3 : FVec Ideal S32x4 .f32) (b3 : FVec Ideal S4 .f32)
    (p : Fin 8000) (q : Fin 4) (r : Fin 3200000)
    (h0 : ∀ i : Fin 2, x0 (ix2 p i) = zi (ix2 r i)) (h1 : ∀ i : Fin 2, x1 (ix2 p i) = zj (ix2 r i))
    (h2 : x2 = W1) (h3 : x3 = b1) (h4 : x4 = W2) (h5 : x5 = b2) (h6 : x6 = W3) (h7 : x7 = b3) :
    k2_pay1 (F := Ideal) x0 x1 x2 x3 x4 x5 x6 x7 (ix2 p q) = RefTerms.decH zi zj W1 b1 W2 b2 W3 b3 (ix2 r q) := by
  subst h2 h3 h4 h5 h6 h7
  rw [pay2_apply, RefTerms.decH_apply, funext h0, funext h1]

variable (V : (c : Dev nD) → (b : Ref sig .tc) → Buf (Elt Ideal) ((c : Thread nD τ).loc b))

/-- The printed index maps over the grid: the two tables and the result move one block of rows per point, the
    weights and biases stay at their one block. -/
theorem idx2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 1) = 0
    ∧ win2_4.index t (0 : Fin 2) = 0 ∧ win2_4.index t (1 : Fin 2) = 0
    ∧ win2_5.index t (0 : Fin 1) = 0
    ∧ win2_6.index t (0 : Fin 2) = 0 ∧ win2_6.index t (1 : Fin 2) = 0
    ∧ win2_7.index t (0 : Fin 1) = 0
    ∧ win2_8.index t (0 : Fin 2) = t.val ∧ win2_8.index t (1 : Fin 2) = 0 :=
  (by decide +kernel : ∀ t : Fin grid2.N, _)

/-- Row `p` of block `t` of the target rows' table is its row `8000 t + p`. -/
theorem iblk2_0_apply (c : Dev nD) (t : Fin cfg2.N) (p : Fin 8000) (i : Fin 2) (r : Fin 3200000)
    (hr : r.val = t.val * 8000 + p.val) :
    (iblk2 V c 0 t : S8000x2.Idx → EReal) (ix2 p i) = (V c main_v37 : S3200000x2.Idx → EReal) (ix2 r i) := by
  unfold iblk2
  rw [View.read_apply]
  show V c main_v37 (((cfg2.win 0).blk t).view.emb (ix2 p i)) = V c main_v37 (ix2 r i)
  refine congrArg _ (funext fun a => Fin.ext ?_)
  obtain ⟨e0, e1, -⟩ := idx2 t
  match a with
  | ⟨0, _⟩ => show win2_0.index t (0 : Fin 2) * 8000 + 1 * p.val = r.val; rw [e0, hr]; omega
  | ⟨1, _⟩ => show win2_0.index t (1 : Fin 2) * 2 + 1 * i.val = i.val; rw [e1]; omega

/-- The same for the source rows' table. -/
theorem iblk2_1_apply (c : Dev nD) (t : Fin cfg2.N) (p : Fin 8000) (i : Fin 2) (r : Fin 3200000)
    (hr : r.val = t.val * 8000 + p.val) :
    (iblk2 V c 1 t : S8000x2.Idx → EReal) (ix2 p i) = (V c main_v44 : S3200000x2.Idx → EReal) (ix2 r i) := by
  unfold iblk2
  rw [View.read_apply]
  show V c main_v44 (((cfg2.win 1).blk t).view.emb (ix2 p i)) = V c main_v44 (ix2 r i)
  refine congrArg _ (funext fun a => Fin.ext ?_)
  obtain ⟨-, -, e0, e1, -⟩ := idx2 t
  match a with
  | ⟨0, _⟩ => show win2_1.index t (0 : Fin 2) * 8000 + 1 * p.val = r.val; rw [e0, hr]; omega
  | ⟨1, _⟩ => show win2_1.index t (1 : Fin 2) * 2 + 1 * i.val = i.val; rw [e1]; omega

/-- The first layer's weights are read whole at every point. -/
theorem iblk2_2_eq (c : Dev nD) (t : Fin cfg2.N) : (iblk2 V c 2 t : S4x32.Idx → EReal) = V c main_arg11 := by
  funext y
  unfold iblk2
  rw [View.read_apply]
  show V c main_arg11 (((cfg2.win 2).blk t).view.emb y) = V c main_arg11 y
  refine congrArg _ (funext fun a => Fin.ext ?_)
  obtain ⟨-, -, -, -, e0, e1, -⟩ := idx2 t
  match a with
  | ⟨0, _⟩ => show win2_2.index t (0 : Fin 2) * 4 + 1 * (y 0).val = (y 0).val; rw [e0]; omega
  | ⟨1, _⟩ => show win2_2.index t (1 : Fin 2) * 32 + 1 * (y 1).val = (y 1).val; rw [e1]; omega

/-- The first layer's bias is read whole at every point. -/
theorem iblk2_3_eq (c : Dev nD) (t : Fin cfg2.N) : (iblk2 V c 3 t : S32.Idx → EReal) = V c main_arg12 := by
  funext y
  unfold iblk2
  rw [View.read_apply]
  show V c main_arg12 (((cfg2.win 3).blk t).view.emb y) = V c main_arg12 y
  refine congrArg _ (funext fun a => Fin.ext ?_)
  obtain ⟨-, -, -, -, -, -, e0, -⟩ := idx2 t
  match a with
  | ⟨0, _⟩ => show win2_3.index t (0 : Fin 1) * 32 + 1 * (y 0).val = (y 0).val; rw [e0]; omega

/-- The second layer's weights are read whole at every point. -/
theorem iblk2_4_eq (c : Dev nD) (t : Fin cfg2.N) : (iblk2 V c 4 t : S32x32.Idx → EReal) = V c main_arg13 := by
  funext y
  unfold iblk2
  rw [View.read_apply]
  show V c main_arg13 (((cfg2.win 4).blk t).view.emb y) = V c main_arg13 y
  refine congrArg _ (funext fun a => Fin.ext ?_)
  obtain ⟨-, -, -, -, -, -, -, e0, e1, -⟩ := idx2 t
  match a with
  | ⟨0, _⟩ => show win2_4.index t (0 : Fin 2) * 32 + 1 * (y 0).val = (y 0).val; rw [e0]; omega
  | ⟨1, _⟩ => show win2_4.index t (1 : Fin 2) * 32 + 1 * (y 1).val = (y 1).val; rw [e1]; omega

/-- The second layer's bias is read whole at every point. -/
theorem iblk2_5_eq (c : Dev nD) (t : Fin cfg2.N) : (iblk2 V c 5 t : S32.Idx → EReal) = V c main_arg14 := by
  funext y
  unfold iblk2
  rw [View.read_apply]
  show V c main_arg14 (((cfg2.win 5).blk t).view.emb y) = V c main_arg14 y
  refine congrArg _ (funext fun a => Fin.ext ?_)
  obtain ⟨-, -, -, -, -, -, -, -, -, e0, -⟩ := idx2 t
  match a with
  | ⟨0, _⟩ => show win2_5.index t (0 : Fin 1) * 32 + 1 * (y 0).val = (y 0).val; rw [e0]; omega

/-- The third layer's weights are read whole at every point. -/
theorem iblk2_6_eq (c : Dev nD) (t : Fin cfg2.N) : (iblk2 V c 6 t : S32x4.Idx → EReal) = V c main_arg15 := by
  funext y
  unfold iblk2
  rw [View.read_apply]
  show V c main_arg15 (((cfg2.win 6).blk t).view.emb y) = V c main_arg15 y
  refine congrArg _ (funext fun a => Fin.ext ?_)
  obtain ⟨-, -, -, -, -, -, -, -, -, -, e0, e1, -⟩ := idx2 t
  match a with
  | ⟨0, _⟩ => show win2_6.index t (0 : Fin 2) * 32 + 1 * (y 0).val = (y 0).val; rw [e0]; omega
  | ⟨1, _⟩ => show win2_6.index t (1 : Fin 2) * 4 + 1 * (y 1).val = (y 1).val; rw [e1]; omega

/-- The third layer's bias is read whole at every point. -/
theorem iblk2_7_eq (c : Dev nD) (t : Fin cfg2.N) : (iblk2 V c 7 t : S4.Idx → EReal) = V c main_arg16 := by
  funext y
  unfold iblk2
  rw [View.read_apply]
  show V c main_arg16 (((cfg2.win 7).blk t).view.emb y) = V c main_arg16 y
  refine congrArg _ (funext fun a => Fin.ext ?_)
  obtain ⟨-, -, -, -, -, -, -, -, -, -, -, -, e0, -⟩ := idx2 t
  match a with
  | ⟨0, _⟩ => show win2_7.index t (0 : Fin 1) * 4 + 1 * (y 0).val = (y 0).val; rw [e0]; omega

/-- What point `t` writes back is block `t` of the host's perceptron of the two tables as the region finds them. -/
theorem flushed2_8 (c : Dev nD) (t : Fin cfg2.N) :
    (dat2 V c).flushed 8 t = ((cfg2.win 8).blk t).view.read (Elt Ideal)
      (RefTerms.decH (V c main_v37) (V c main_v44) (V c main_arg11) (V c main_arg12) (V c main_arg13) (V c main_arg14) (V c main_arg15) (V c main_arg16)) := by
  show (cfg2.win 8).cut (grid2.coords t) ((dat2 V c).after 8 t) = _
  rw [after2_8]
  unfold out2_8
  rw [View.canon_unit_zero zero2_2]
  simp only [View.ld_unit_zero (S := S8000x2) zero2_2, View.ld_unit_zero (S := S4x32) zero2_2,
    View.ld_unit_zero (S := S32) zero1_2, View.ld_unit_zero (S := S32x32) zero2_2,
    View.ld_unit_zero (S := S32x4) zero2_2, View.ld_unit_zero (S := S4) zero1_2]
  refine funext fun (j : S8000x4.Idx) => ?_
  obtain ⟨p, q, rfl⟩ : ∃ (p : Fin 8000) (q : Fin 4), j = ix2 p q := ⟨j 0, j 1, eq_ix2 j⟩
  have hN : cfg2.N = 400 := N_2
  have ht : t.val < 400 := hN ▸ t.isLt
  obtain ⟨-, -, -, -, -, -, -, -, -, -, -, -, -, e0, e1⟩ := idx2 t
  have hp : p.val < 8000 := p.isLt
  have hr : t.val * 8000 + p.val < 3200000 := by omega
  have hemb : ((cfg2.win 8).blk t).view.emb (ix2 p q) = (ix2 (⟨t.val * 8000 + p.val, hr⟩ : Fin 3200000) q : S3200000x4.Idx) := by
    funext a; apply Fin.ext
    match a with
    | ⟨0, _⟩ => show win2_8.index t (0 : Fin 2) * 8000 + 1 * p.val = t.val * 8000 + p.val; rw [e0]; omega
    | ⟨1, _⟩ => show win2_8.index t (1 : Fin 2) * 4 + 1 * q.val = q.val; rw [e1]; omega
  rw [View.read_apply, hemb]
  exact dec_point (iblk2 V c 0 t) (iblk2 V c 1 t) (iblk2 V c 2 t) (iblk2 V c 3 t) (iblk2 V c 4 t) (iblk2 V c 5 t) (iblk2 V c 6 t) (iblk2 V c 7 t)
    (V c main_v37) (V c main_v44) (V c main_arg11) (V c main_arg12) (V c main_arg13) (V c main_arg14) (V c main_arg15) (V c main_arg16)
    p q ⟨t.val * 8000 + p.val, hr⟩
    (fun i => iblk2_0_apply V c t p i _ rfl) (fun i => iblk2_1_apply V c t p i _ rfl)
    (iblk2_2_eq V c t) (iblk2_3_eq V c t) (iblk2_4_eq V c t) (iblk2_5_eq V c t) (iblk2_6_eq V c t) (iblk2_7_eq V c t)

/-- An index of the array is in point `t`'s block of window 8 iff each coordinate is in the block's range on its axis. -/
theorem mem_blk2_8 (t : Fin cfg2.N) (i : S3200000x4.Idx) :
    i ∈ ((cfg2.win 8).blk t).view.set ↔ ∀ a : Fin 2, win2_8.index t a * S8000x4.size a ≤ (i a).val ∧ (i a).val < win2_8.index t a * S8000x4.size a + S8000x4.size a := by
  show i ∈ ((View.whole main_v45).slice (win2_8.rect t)).set ↔ _
  rw [View.set_slice_whole, Rect.mem_set_unit]
  exact Iff.rfl

/-- The result array after the region: the host's perceptron of the two tables as the region finds them. -/
theorem final2 (c : Dev nD) : (dat2 V c).arrAt 8 cfg2.N
    = RefTerms.decH (V c main_v37) (V c main_v44) (V c main_arg11) (V c main_arg12) (V c main_arg13) (V c main_arg14) (V c main_arg15) (V c main_arg16) :=
  (dat2 V c).arrAt_eq_of_cover 8 _ (fun t _ => flushed2_8 V c t) fun i => by
    have hi0 : (i 0).val < 3200000 := (i 0).isLt
    have hi1 : (i 1).val < 4 := (i 1).isLt
    have hN : cfg2.N = 400 := N_2
    refine ⟨⟨(i 0).val / 8000, by rw [hN]; omega⟩, flush2_8 _, ?_⟩
    rw [mem_blk2_8]
    obtain ⟨-, -, -, -, -, -, -, -, -, -, -, -, -, e0, e1⟩ := idx2 ⟨(i 0).val / 8000, by rw [hN]; omega⟩
    intro a
    match a with
    | ⟨0, _⟩ =>
      show win2_8.index ⟨(i 0).val / 8000, _⟩ (0 : Fin 2) * 8000 ≤ (i 0).val ∧ (i 0).val < win2_8.index ⟨(i 0).val / 8000, _⟩ (0 : Fin 2) * 8000 + 8000
      rw [e0]; show (i 0).val / 8000 * 8000 ≤ (i 0).val ∧ (i 0).val < (i 0).val / 8000 * 8000 + 8000; omega
    | ⟨1, _⟩ =>
      show win2_8.index ⟨(i 0).val / 8000, _⟩ (1 : Fin 2) * 4 ≤ (i 1).val ∧ (i 1).val < win2_8.index ⟨(i 0).val / 8000, _⟩ (1 : Fin 2) * 4 + 4
      rw [e1]; omega

end Cert.KernelIdeal.Hand

end
-- ==== Proof.Chain.lean ====
/-
  The idealized kernel's three results as the reference's stages of the arguments.

  The run's final contents are a fold through seven segments. Read backwards from each result buffer: a stretch of
  host operations leaves in a buffer it writes the operation's value of what the stretch found, and every other
  buffer as found; a region leaves in its result arrays the functions of its input arrays proved for it, and every
  other buffer as entered. Folding these equations from the launch memory forwards gives each result as the
  composition of the stages — the gathers of the node table along the edge list, the encoder's edge perceptron, its
  mean over the edges into each node, the two heads and the sample, the gathers of the sample, the decoder's edge
  perceptron and its mean.
-/
import proofs.«112424_j2731599200743_2_alg».proof.Proof.KernelRun
import proofs.«112424_j2731599200743_2_alg».proof.Proof.Region0
import proofs.«112424_j2731599200743_2_alg».proof.Proof.Region1
import proofs.«112424_j2731599200743_2_alg».proof.Proof.Region2
import Idealize.ShloMosaic.Lib.StableHlo.Run

set_option maxRecDepth 16384

noncomputable section

namespace Cert.KernelIdeal.Hand

open Cert.KernelIdeal Cert.KernelIdeal.Gen Cert.KernelIdeal.GenP
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first stretch: the edge list's rows and the two gathered node tables -/

/-- The edges' target nodes. -/
theorem s0_dst : (W1 m ρ c (Proc.devRef .tc main_v3) : S3200000.Idx → BitVec 32) = RefTerms.dstOf (m ((c.tc : Thread nD τ).loc main_arg1)) := by
  dsimp only [W1, hostOps0]
  after_results
  all_goals rfl

/-- The edges' source nodes. -/
theorem s0_src : (W1 m ρ c (Proc.devRef .tc main_v1) : S3200000.Idx → BitVec 32) = RefTerms.srcOf (m ((c.tc : Thread nD τ).loc main_arg1)) := by
  dsimp only [W1, hostOps0]
  after_results
  all_goals rfl

set_option maxHeartbeats 4000000 in
/-- The target nodes' rows of the node table. -/
theorem s0_xi : (W1 m ρ c (Proc.devRef .tc main_v10) : S3200000x4.Idx → EReal) = RefTerms.rows4 (m ((c.tc : Thread nD τ).loc main_arg0)) (RefTerms.startCol (RefTerms.dstOf (m ((c.tc : Thread nD τ).loc main_arg1)))) := by
  dsimp only [W1, hostOps0]
  after_results
  all_goals rfl

set_option maxHeartbeats 4000000 in
/-- The source nodes' rows of the node table. -/
theorem s0_xj : (W1 m ρ c (Proc.devRef .tc main_v17) : S3200000x4.Idx → EReal) = RefTerms.rows4 (m ((c.tc : Thread nD τ).loc main_arg0)) (RefTerms.startCol (RefTerms.srcOf (m ((c.tc : Thread nD τ).loc main_arg1)))) := by
  dsimp only [W1, hostOps0]
  after_results
  all_goals rfl

/-- Argument 2 is not written by the first stretch. -/
theorem s0_arg2 : (W1 m ρ c (Proc.devRef .tc main_arg2) : S100000x2.Idx → EReal) = (m ((c.tc : Thread nD τ).loc main_arg2)) := by
  dsimp only [W1, hostOps0]
  after_results
  all_goals rfl
/-- Argument 3 is not written by the first stretch. -/
theorem s0_arg3 : (W1 m ρ c (Proc.devRef .tc main_arg3) : S8x32.Idx → EReal) = (m ((c.tc : Thread nD τ).loc main_arg3)) := by
  dsimp only [W1, hostOps0]
  after_results
  all_goals rfl
/-- Argument 4 is not written by the first stretch. -/
theorem s0_arg4 : (W1 m ρ c (Proc.devRef .tc main_arg4) : S32.Idx → EReal) = (m ((c.tc : Thread nD τ).loc main_arg4)) := by
  dsimp only [W1, hostOps0]
  after_results
  all_goals rfl
/-- Argument 5 is not written by the first stretch. -/
theorem s0_arg5 : (W1 m ρ c (Proc.devRef .tc main_arg5) : S32x32.Idx → EReal) = (m ((c.tc : Thread nD τ).loc main_arg5)) := by
  dsimp only [W1, hostOps0]
  after_results
  all_goals rfl
/-- Argument 6 is not written by the first stretch. -/
theorem s0_arg6 : (W1 m ρ c (Proc.devRef .tc main_arg6) : S32.Idx → EReal) = (m ((c.tc : Thread nD τ).loc main_arg6)) := by
  dsimp only [W1, hostOps0]
  after_results
  all_goals rfl
/-- Argument 7 is not written by the first stretch. -/
theorem s0_arg7 : (W1 m ρ c (Proc.devRef .tc main_arg7) : S32x2.Idx → EReal) = (m ((c.tc : Thread nD τ).loc main_arg7)) := by
  dsimp only [W1, hostOps0]
  after_results
  all_goals rfl
/-- Argument 8 is not written by the first stretch. -/
theorem s0_arg8 : (W1 m ρ c (Proc.devRef .tc main_arg8) : S2.Idx → EReal) = (m ((c.tc : Thread nD τ).loc main_arg8)) := by
  dsimp only [W1, hostOps0]
  after_results
  all_goals rfl
/-- Argument 9 is not written by the first stretch. -/
theorem s0_arg9 : (W1 m ρ c (Proc.devRef .tc main_arg9) : S32x2.Idx → EReal) = (m ((c.tc : Thread nD τ).loc main_arg9)) := by
  dsimp only [W1, hostOps0]
  after_results
  all_goals rfl
/-- Argument 10 is not written by the first stretch. -/
theorem s0_arg10 : (W1 m ρ c (Proc.devRef .tc main_arg10) : S2.Idx → EReal) = (m ((c.tc : Thread nD τ).loc main_arg10)) := by
  dsimp only [W1, hostOps0]
  after_results
  all_goals rfl
/-- Argument 11 is not written by the first stretch. -/
theorem s0_arg11 : (W1 m ρ c (Proc.devRef .tc main_arg11) : S4x32.Idx → EReal) = (m ((c.tc : Thread nD τ).loc main_arg11)) := by
  dsimp only [W1, hostOps0]
  after_results
  all_goals rfl
/-- Argument 12 is not written by the first stretch. -/
theorem s0_arg12 : (W1 m ρ c (Proc.devRef .tc main_arg12) : S32.Idx → EReal) = (m ((c.tc : Thread nD τ).loc main_arg12)) := by
  dsimp only [W1, hostOps0]
  after_results
  all_goals rfl
/-- Argument 13 is not written by the first stretch. -/
theorem s0_arg13 : (W1 m ρ c (Proc.devRef .tc main_arg13) : S32x32.Idx → EReal) = (m ((c.tc : Thread nD τ).loc main_arg13)) := by
  dsimp only [W1, hostOps0]
  after_results
  all_goals rfl
/-- Argument 14 is not written by the first stretch. -/
theorem s0_arg14 : (W1 m ρ c (Proc.devRef .tc main_arg14) : S32.Idx → EReal) = (m ((c.tc : Thread nD τ).loc main_arg14)) := by
  dsimp only [W1, hostOps0]
  after_results
  all_goals rfl
/-- Argument 15 is not written by the first stretch. -/
theorem s0_arg15 : (W1 m ρ c (Proc.devRef .tc main_arg15) : S32x4.Idx → EReal) = (m ((c.tc : Thread nD τ).loc main_arg15)) := by
  dsimp only [W1, hostOps0]
  after_results
  all_goals rfl
/-- Argument 16 is not written by the first stretch. -/
theorem s0_arg16 : (W1 m ρ c (Proc.devRef .tc main_arg16) : S4.Idx → EReal) = (m ((c.tc : Thread nD τ).loc main_arg16)) := by
  dsimp only [W1, hostOps0]
  after_results
  all_goals rfl

/-! ## After the first region: the encoder's edge messages -/

/-- The encoder's edge messages: the perceptron of the two gathered tables. -/
theorem s1_enc : (W2 m ρ c (Proc.devRef .tc main_v18) : S3200000x32.Idx → EReal)
    = RefTerms.encH (W1 m ρ c (Proc.devRef .tc main_v10)) (W1 m ρ c (Proc.devRef .tc main_v17)) (W1 m ρ c (Proc.devRef .tc main_arg3)) (W1 m ρ c (Proc.devRef .tc main_arg4)) (W1 m ρ c (Proc.devRef .tc main_arg5)) (W1 m ρ c (Proc.devRef .tc main_arg6)) :=
  (W2_arr m ρ c 6).trans (final0 (V1 m ρ) c)
theorem s1_v3 : W2 m ρ c (Proc.devRef .tc main_v3) = W1 m ρ c (Proc.devRef .tc main_v3) := W2_of_ne m ρ c main_v3 (by decide)
theorem s1_v1 : W2 m ρ c (Proc.devRef .tc main_v1) = W1 m ρ c (Proc.devRef .tc main_v1) := W2_of_ne m ρ c main_v1 (by decide)
theorem s1_arg2 : W2 m ρ c (Proc.devRef .tc main_arg2) = W1 m ρ c (Proc.devRef .tc main_arg2) := W2_of_ne m ρ c main_arg2 (by decide)
theorem s1_arg7 : W2 m ρ c (Proc.devRef .tc main_arg7) = W1 m ρ c (Proc.devRef .tc main_arg7) := W2_of_ne m ρ c main_arg7 (by decide)
theorem s1_arg8 : W2 m ρ c (Proc.devRef .tc main_arg8) = W1 m ρ c (Proc.devRef .tc main_arg8) := W2_of_ne m ρ c main_arg8 (by decide)
theorem s1_arg9 : W2 m ρ c (Proc.devRef .tc main_arg9) = W1 m ρ c (Proc.devRef .tc main_arg9) := W2_of_ne m ρ c main_arg9 (by decide)
theorem s1_arg10 : W2 m ρ c (Proc.devRef .tc main_arg10) = W1 m ρ c (Proc.devRef .tc main_arg10) := W2_of_ne m ρ c main_arg10 (by decide)
theorem s1_arg11 : W2 m ρ c (Proc.devRef .tc main_arg11) = W1 m ρ c (Proc.devRef .tc main_arg11) := W2_of_ne m ρ c main_arg11 (by decide)
theorem s1_arg12 : W2 m ρ c (Proc.devRef .tc main_arg12) = W1 m ρ c (Proc.devRef .tc main_arg12) := W2_of_ne m ρ c main_arg12 (by decide)
theorem s1_arg13 : W2 m ρ c (Proc.devRef .tc main_arg13) = W1 m ρ c (Proc.devRef .tc main_arg13) := W2_of_ne m ρ c main_arg13 (by decide)
theorem s1_arg14 : W2 m ρ c (Proc.devRef .tc main_arg14) = W1 m ρ c (Proc.devRef .tc main_arg14) := W2_of_ne m ρ c main_arg14 (by decide)
theorem s1_arg15 : W2 m ρ c (Proc.devRef .tc main_arg15) = W1 m ρ c (Proc.devRef .tc main_arg15) := W2_of_ne m ρ c main_arg15 (by decide)
theorem s1_arg16 : W2 m ρ c (Proc.devRef .tc main_arg16) = W1 m ρ c (Proc.devRef .tc main_arg16) := W2_of_ne m ρ c main_arg16 (by decide)

/-! ## After the second stretch: the encoder's node features and the edge counts -/

/-- The node features: the edge messages' sum into each node over the count made at least one. -/
theorem s2_h : (W3 m ρ c (Proc.devRef .tc main_v29) : S100000x32.Idx → EReal) = RefTerms.mean32 (W2 m ρ c (Proc.devRef .tc main_v3)) (W2 m ρ c (Proc.devRef .tc main_v18)) := by
  dsimp only [W3, hostOps1]
  after_results
  all_goals rfl
/-- The number of edges into each node. -/
theorem s2_cnt : (W3 m ρ c (Proc.devRef .tc main_v25) : S100000x1.Idx → EReal) = RefTerms.rawCountH (W2 m ρ c (Proc.devRef .tc main_v3)) := by
  dsimp only [W3, hostOps1]
  after_results
  all_goals rfl
theorem s2_v3 : W3 m ρ c (Proc.devRef .tc main_v3) = W2 m ρ c (Proc.devRef .tc main_v3) := by
  dsimp only [W3, hostOps1]
  after_results
  all_goals rfl
theorem s2_v1 : W3 m ρ c (Proc.devRef .tc main_v1) = W2 m ρ c (Proc.devRef .tc main_v1) := by
  dsimp only [W3, hostOps1]
  after_results
  all_goals rfl
theorem s2_arg2 : W3 m ρ c (Proc.devRef .tc main_arg2) = W2 m ρ c (Proc.devRef .tc main_arg2) := by
  dsimp only [W3, hostOps1]
  after_results
  all_goals rfl
theorem s2_arg7 : W3 m ρ c (Proc.devRef .tc main_arg7) = W2 m ρ c (Proc.devRef .tc main_arg7) := by
  dsimp only [W3, hostOps1]
  after_results
  all_goals rfl
theorem s2_arg8 : W3 m ρ c (Proc.devRef .tc main_arg8) = W2 m ρ c (Proc.devRef .tc main_arg8) := by
  dsimp only [W3, hostOps1]
  after_results
  all_goals rfl
theorem s2_arg9 : W3 m ρ c (Proc.devRef .tc main_arg9) = W2 m ρ c (Proc.devRef .tc main_arg9) := by
  dsimp only [W3, hostOps1]
  after_results
  all_goals rfl
theorem s2_arg10 : W3 m ρ c (Proc.devRef .tc main_arg10) = W2 m ρ c (Proc.devRef .tc main_arg10) := by
  dsimp only [W3, hostOps1]
  after_results
  all_goals rfl
theorem s2_arg11 : W3 m ρ c (Proc.devRef .tc main_arg11) = W2 m ρ c (Proc.devRef .tc main_arg11) := by
  dsimp only [W3, hostOps1]
  after_results
  all_goals rfl
theorem s2_arg12 : W3 m ρ c (Proc.devRef .tc main_arg12) = W2 m ρ c (Proc.devRef .tc main_arg12) := by
  dsimp only [W3, hostOps1]
  after_results
  all_goals rfl
theorem s2_arg13 : W3 m ρ c (Proc.devRef .tc main_arg13) = W2 m ρ c (Proc.devRef .tc main_arg13) := by
  dsimp only [W3, hostOps1]
  after_results
  all_goals rfl
theorem s2_arg14 : W3 m ρ c (Proc.devRef .tc main_arg14) = W2 m ρ c (Proc.devRef .tc main_arg14) := by
  dsimp only [W3, hostOps1]
  after_results
  all_goals rfl
theorem s2_arg15 : W3 m ρ c (Proc.devRef .tc main_arg15) = W2 m ρ c (Proc.devRef .tc main_arg15) := by
  dsimp only [W3, hostOps1]
  after_results
  all_goals rfl
theorem s2_arg16 : W3 m ρ c (Proc.devRef .tc main_arg16) = W2 m ρ c (Proc.devRef .tc main_arg16) := by
  dsimp only [W3, hostOps1]
  after_results
  all_goals rfl

/-! ## After the second region: the two heads and the sample -/

/-- The mean. -/
theorem s3_mu : (W4 m ρ c (Proc.devRef .tc main_v30_0) : S100000x2.Idx → EReal)
    = RefTerms.headH (W3 m ρ c (Proc.devRef .tc main_v29)) (W3 m ρ c (Proc.devRef .tc main_arg7)) (W3 m ρ c (Proc.devRef .tc main_arg8)) :=
  (W4_arr m ρ c 6).trans (final1_mu (V3 m ρ) c)
/-- The log-variance. -/
theorem s3_lv : (W4 m ρ c (Proc.devRef .tc main_v30_1) : S100000x2.Idx → EReal)
    = RefTerms.headH (W3 m ρ c (Proc.devRef .tc main_v29)) (W3 m ρ c (Proc.devRef .tc main_arg9)) (W3 m ρ c (Proc.devRef .tc main_arg10)) :=
  (W4_arr m ρ c 7).trans (final1_lv (V3 m ρ) c)
/-- The sample. -/
theorem s3_z : (W4 m ρ c (Proc.devRef .tc main_v30_2) : S100000x2.Idx → EReal)
    = RefTerms.sampleH (RefTerms.headH (W3 m ρ c (Proc.devRef .tc main_v29)) (W3 m ρ c (Proc.devRef .tc main_arg7)) (W3 m ρ c (Proc.devRef .tc main_arg8)))
        (RefTerms.headH (W3 m ρ c (Proc.devRef .tc main_v29)) (W3 m ρ c (Proc.devRef .tc main_arg9)) (W3 m ρ c (Proc.devRef .tc main_arg10))) (W3 m ρ c (Proc.devRef .tc main_arg2)) :=
  (W4_arr m ρ c 8).trans (final1_z (V3 m ρ) c)
theorem s3_v3 : W4 m ρ c (Proc.devRef .tc main_v3) = W3 m ρ c (Proc.devRef .tc main_v3) := W4_of_ne m ρ c main_v3 (by decide)
theorem s3_v1 : W4 m ρ c (Proc.devRef .tc main_v1) = W3 m ρ c (Proc.devRef .tc main_v1) := W4_of_ne m ρ c main_v1 (by decide)
theorem s3_v25 : W4 m ρ c (Proc.devRef .tc main_v25) = W3 m ρ c (Proc.devRef .tc main_v25) := W4_of_ne m ρ c main_v25 (by decide)
theorem s3_arg11 : W4 m ρ c (Proc.devRef .tc main_arg11) = W3 m ρ c (Proc.devRef .tc main_arg11) := W4_of_ne m ρ c main_arg11 (by decide)
theorem s3_arg12 : W4 m ρ c (Proc.devRef .tc main_arg12) = W3 m ρ c (Proc.devRef .tc main_arg12) := W4_of_ne m ρ c main_arg12 (by decide)
theorem s3_arg13 : W4 m ρ c (Proc.devRef .tc main_arg13) = W3 m ρ c (Proc.devRef .tc main_arg13) := W4_of_ne m ρ c main_arg13 (by decide)
theorem s3_arg14 : W4 m ρ c (Proc.devRef .tc main_arg14) = W3 m ρ c (Proc.devRef .tc main_arg14) := W4_of_ne m ρ c main_arg14 (by decide)
theorem s3_arg15 : W4 m ρ c (Proc.devRef .tc main_arg15) = W3 m ρ c (Proc.devRef .tc main_arg15) := W4_of_ne m ρ c main_arg15 (by decide)
theorem s3_arg16 : W4 m ρ c (Proc.devRef .tc main_arg16) = W3 m ρ c (Proc.devRef .tc main_arg16) := W4_of_ne m ρ c main_arg16 (by decide)

/-! ## After the third stretch: the two gathered sample tables -/

set_option maxHeartbeats 4000000 in
/-- The target nodes' rows of the sample. -/
theorem s4_zi : (W5 m ρ c (Proc.devRef .tc main_v37) : S3200000x2.Idx → EReal) = RefTerms.rows2 (W4 m ρ c (Proc.devRef .tc main_v30_2)) (RefTerms.startCol (W4 m ρ c (Proc.devRef .tc main_v3))) := by
  dsimp only [W5, hostOps2]
  after_results
  all_goals rfl
set_option maxHeartbeats 4000000 in
/-- The source nodes' rows of the sample. -/
theorem s4_zj : (W5 m ρ c (Proc.devRef .tc main_v44) : S3200000x2.Idx → EReal) = RefTerms.rows2 (W4 m ρ c (Proc.devRef .tc main_v30_2)) (RefTerms.startCol (W4 m ρ c (Proc.devRef .tc main_v1))) := by
  dsimp only [W5, hostOps2]
  after_results
  all_goals rfl
theorem s4_v3 : W5 m ρ c (Proc.devRef .tc main_v3) = W4 m ρ c (Proc.devRef .tc main_v3) := by
  dsimp only [W5, hostOps2]
  after_results
  all_goals rfl
theorem s4_v25 : W5 m ρ c (Proc.devRef .tc main_v25) = W4 m ρ c (Proc.devRef .tc main_v25) := by
  dsimp only [W5, hostOps2]
  after_results
  all_goals rfl
theorem s4_v30_0 : W5 m ρ c (Proc.devRef .tc main_v30_0) = W4 m ρ c (Proc.devRef .tc main_v30_0) := by
  dsimp only [W5, hostOps2]
  after_results
  all_goals rfl
theorem s4_v30_1 : W5 m ρ c (Proc.devRef .tc main_v30_1) = W4 m ρ c (Proc.devRef .tc main_v30_1) := by
  dsimp only [W5, hostOps2]
  after_results
  all_goals rfl
theorem s4_arg11 : W5 m ρ c (Proc.devRef .tc main_arg11) = W4 m ρ c (Proc.devRef .tc main_arg11) := by
  dsimp only [W5, hostOps2]
  after_results
  all_goals rfl
theorem s4_arg12 : W5 m ρ c (Proc.devRef .tc main_arg12) = W4 m ρ c (Proc.devRef .tc main_arg12) := by
  dsimp only [W5, hostOps2]
  after_results
  all_goals rfl
theorem s4_arg13 : W5 m ρ c (Proc.devRef .tc main_arg13) = W4 m ρ c (Proc.devRef .tc main_arg13) := by
  dsimp only [W5, hostOps2]
  after_results
  all_goals rfl
theorem s4_arg14 : W5 m ρ c (Proc.devRef .tc main_arg14) = W4 m ρ c (Proc.devRef .tc main_arg14) := by
  dsimp only [W5, hostOps2]
  after_results
  all_goals rfl
theorem s4_arg15 : W5 m ρ c (Proc.devRef .tc main_arg15) = W4 m ρ c (Proc.devRef .tc main_arg15) := by
  dsimp only [W5, hostOps2]
  after_results
  all_goals rfl
theorem s4_arg16 : W5 m ρ c (Proc.devRef .tc main_arg16) = W4 m ρ c (Proc.devRef .tc main_arg16) := by
  dsimp only [W5, hostOps2]
  after_results
  all_goals rfl

/-! ## After the third region: the decoder's edge messages -/

/-- The decoder's edge messages: the perceptron of the two gathered sample tables. -/
theorem s5_dec : (W6 m ρ c (Proc.devRef .tc main_v45) : S3200000x4.Idx → EReal)
    = RefTerms.decH (W5 m ρ c (Proc.devRef .tc main_v37)) (W5 m ρ c (Proc.devRef .tc main_v44)) (W5 m ρ c (Proc.devRef .tc main_arg11)) (W5 m ρ c (Proc.devRef .tc main_arg12)) (W5 m ρ c (Proc.devRef .tc main_arg13)) (W5 m ρ c (Proc.devRef .tc main_arg14)) (W5 m ρ c (Proc.devRef .tc main_arg15)) (W5 m ρ c (Proc.devRef .tc main_arg16)) :=
  (W6_arr m ρ c 8).trans (final2 (V5 m ρ) c)
theorem s5_v3 : W6 m ρ c (Proc.devRef .tc main_v3) = W5 m ρ c (Proc.devRef .tc main_v3) := W6_of_ne m ρ c main_v3 (by decide)
theorem s5_v25 : W6 m ρ c (Proc.devRef .tc main_v25) = W5 m ρ c (Proc.devRef .tc main_v25) := W6_of_ne m ρ c main_v25 (by decide)
theorem s5_v30_0 : W6 m ρ c (Proc.devRef .tc main_v30_0) = W5 m ρ c (Proc.devRef .tc main_v30_0) := W6_of_ne m ρ c main_v30_0 (by decide)
theorem s5_v30_1 : W6 m ρ c (Proc.devRef .tc main_v30_1) = W5 m ρ c (Proc.devRef .tc main_v30_1) := W6_of_ne m ρ c main_v30_1 (by decide)

/-! ## After the last stretch: the output -/

/-- The output: the decoder's edge messages' sum into each node over the count made at least one. -/
theorem s6_out : (W7 m ρ c (Proc.devRef .tc main_v52) : S100000x4.Idx → EReal)
    = RefTerms.meanBy4 (W6 m ρ c (Proc.devRef .tc main_v3)) (RefTerms.atLeastOne (W6 m ρ c (Proc.devRef .tc main_v25))) (W6 m ρ c (Proc.devRef .tc main_v45)) := by
  dsimp only [W7, hostOps3]
  after_results
  all_goals rfl
theorem s6_v30_0 : W7 m ρ c (Proc.devRef .tc main_v30_0) = W6 m ρ c (Proc.devRef .tc main_v30_0) := by
  dsimp only [W7, hostOps3]
  after_results
  all_goals rfl
theorem s6_v30_1 : W7 m ρ c (Proc.devRef .tc main_v30_1) = W6 m ρ c (Proc.devRef .tc main_v30_1) := by
  dsimp only [W7, hostOps3]
  after_results
  all_goals rfl

/-! ## The three results -/

/-- The encoder's node features as the region after them finds them. -/
theorem hidden_eq : (W3 m ρ c (Proc.devRef .tc main_v29) : S100000x32.Idx → EReal)
    = RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  rw [s2_h, s1_enc, s1_v3, s0_dst, s0_xi, s0_xj, s0_arg3, s0_arg4, s0_arg5, s0_arg6]
  rfl

/-- The mean result. -/
theorem out_mu : (W7 m ρ c (Proc.devRef .tc main_v30_0) : S100000x2.Idx → EReal)
    = RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  rw [s6_v30_0, s5_v30_0, s4_v30_0, s3_mu, hidden_eq, s2_arg7, s1_arg7, s0_arg7, s2_arg8, s1_arg8, s0_arg8]

/-- The log-variance result. -/
theorem out_lv : (W7 m ρ c (Proc.devRef .tc main_v30_1) : S100000x2.Idx → EReal)
    = RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)) := by
  rw [s6_v30_1, s5_v30_1, s4_v30_1, s3_lv, hidden_eq, s2_arg9, s1_arg9, s0_arg9, s2_arg10, s1_arg10, s0_arg10]

set_option maxHeartbeats 4000000 in
/-- The sample as the last region finds it. -/
theorem z_eq : (W4 m ρ c (Proc.devRef .tc main_v30_2) : S100000x2.Idx → EReal)
    = RefTerms.sampleH
        (RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))
        (RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)))
        (m ((c.tc : Thread nD τ).loc main_arg2)) := by
  rw [s3_z, hidden_eq, s2_arg7, s1_arg7, s0_arg7, s2_arg8, s1_arg8, s0_arg8, s2_arg9, s1_arg9, s0_arg9,
    s2_arg10, s1_arg10, s0_arg10, s2_arg2, s1_arg2, s0_arg2]

set_option maxHeartbeats 4000000 in
/-- The output result. -/
theorem out_out : (W7 m ρ c (Proc.devRef .tc main_v52) : S100000x4.Idx → EReal)
    = RefTerms.outT (RefTerms.sampleH
        (RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)))
        (RefTerms.headH (RefTerms.hiddenT (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg9)) (m ((c.tc : Thread nD τ).loc main_arg10)))
        (m ((c.tc : Thread nD τ).loc main_arg2)))
      (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  rw [s6_out, s5_dec, s5_v3, s4_v3, s3_v3, s2_v3, s1_v3, s0_dst, s5_v25, s4_v25, s3_v25, s2_cnt, s1_v3, s0_dst,
    s4_zi, s4_zj, z_eq, s3_v3, s2_v3, s1_v3, s0_dst, s3_v1, s2_v1, s1_v1, s0_src,
    s4_arg11, s3_arg11, s2_arg11, s1_arg11, s0_arg11, s4_arg12, s3_arg12, s2_arg12, s1_arg12, s0_arg12,
    s4_arg13, s3_arg13, s2_arg13, s1_arg13, s0_arg13, s4_arg14, s3_arg14, s2_arg14, s1_arg14, s0_arg14,
    s4_arg15, s3_arg15, s2_arg15, s1_arg15, s0_arg15, s4_arg16, s3_arg16, s2_arg16, s1_arg16, s0_arg16]
  rfl

end Cert.KernelIdeal.Hand

end
-- ==== Proof.lean ====
/-
  The certificate of a graph variational autoencoder's forward pass: three pipelined kernels (the encoder's edge
  perceptron, the two heads with the reparameterised sample, the decoder's edge perceptron) among host gathers and
  edge means, against the same network written with host operations only.

  On the extended reals both programs compute, stage by stage, the same functions of the arguments: the kernels'
  bf16 narrowing is the identity, a product into a zero accumulator plus a broadcast bias row is the host's
  dot_general plus its broadcast bias, and a region's blocks of rows tile the array it writes. No law is used that
  needs the inputs finite: the two sides are one composition of the same stages, so the precondition is never opened.

  The three frames: the two kernel programs' by their frame certificates, the reference's by its run with the
  results dropped. The idealization rewrote nothing. The algebraic claim: the idealized kernel's run with its results
  named and read back through its segments, the reference's run with its results regrouped into the same stages.
-/
import proofs.«112424_j2731599200743_2_alg».proof.Defs
import proofs.«112424_j2731599200743_2_alg».proof.Proof.Gen.Kernel
import proofs.«112424_j2731599200743_2_alg».proof.Proof.Gen.KernelIdeal
import proofs.«112424_j2731599200743_2_alg».proof.Proof.Gen.ReferenceIdeal
import proofs.«112424_j2731599200743_2_alg».proof.Proof.Gen.ReferenceIdeal.Run
import proofs.«112424_j2731599200743_2_alg».proof.Proof.Gen.Pre_finite_inputs
import proofs.«112424_j2731599200743_2_alg».proof.Proof.KernelFrameP
import proofs.«112424_j2731599200743_2_alg».proof.Proof.KernelIdealFrameP
import proofs.«112424_j2731599200743_2_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

set_option maxHeartbeats 4000000 in
/-- Both programs end at the same three arrays: the decoder's edge mean on the sample, the mean head and the
    log-variance head of the encoder's node features, each the composition of the reference's stages of the arguments. -/
theorem algebraic : Cert.algebraic_KernelIdeal_ReferenceIdeal := by
  intro m ρ m' ρ' _ hagree
  refine ⟨fun c => (Cert.RefTerms.outT (Cert.RefTerms.sampleH (Cert.RefTerms.headH (Cert.RefTerms.hiddenT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) (Cert.RefTerms.headH (Cert.RefTerms.hiddenT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) (m ((c.tc : Thread Cert.KernelIdeal.nD Cert.KernelIdeal.τ).loc Cert.KernelIdeal.main_arg2))) (m ((c.tc : Thread Cert.KernelIdeal.nD Cert.KernelIdeal.τ).loc Cert.KernelIdeal.main_arg1)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))),
    fun c => (Cert.RefTerms.headH (Cert.RefTerms.hiddenT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => (Cert.RefTerms.headH (Cert.RefTerms.hiddenT (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), ?_, ?_⟩
  · refine (θ_run Cert.KernelIdeal.defs _ _).mono (fun r h c => ?_) (Cert.KernelIdeal.Hand.run_named (F := Ideal) m ρ)
    obtain ⟨h0, h1, h2, hargs⟩ := h c
    exact ⟨h0.trans (Cert.KernelIdeal.Hand.out_out m ρ c), h1.trans (Cert.KernelIdeal.Hand.out_mu m ρ c),
      h2.trans (Cert.KernelIdeal.Hand.out_lv m ρ c), hargs⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16⟩ := hagree c
    refine ⟨h0.trans ?_, h1.trans ?_, h2.trans ?_, hargs⟩
    · rw [Cert.RefTerms.res_out, a0, a1, a2, a3, a4, a5, a6, a7, a8, a9, a10, a11, a12, a13, a14, a15, a16]
    · rw [Cert.RefTerms.res_mu, a0, a1, a3, a4, a5, a6, a7, a8]
    · rw [Cert.RefTerms.res_lv, a0, a1, a3, a4, a5, a6, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
